-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S4096x8 : Shape := ⟨2, ![4096, 8]⟩
abbrev S8 : Shape := ⟨1, ![8]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  main_v38

def fn_part1 {F : FTy → Type} [FloatOps F] (main_arg4 : FVec F S4096x8 .f32) (main_arg5 : FVec F S8 .f32) (main_arg6 : FVec F S8 .f32) (main_arg7 : FVec F S8 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S4096x1024 .f32) (main_arg2 : FVec F S4096x4096 .f32) (main_arg3 : FVec F S4096x4096 .f32) (main_arg4 : FVec F S4096x8 .f32) (main_arg5 : FVec F S8 .f32) (main_arg6 : FVec F S8 .f32) (main_arg7 : FVec F S8 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_v13 main_v16
-- ==== Kernel.lean ====
abbrev S4096x1024 : Shape := ⟨2, ![4096, 1024]⟩
abbrev S4096x4096 : Shape := ⟨2, ![4096, 4096]⟩
abbrev S4096x8 : Shape := ⟨2, ![4096, 8]⟩
abbrev S8 : Shape := ⟨1, ![8]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩
abbrev S8x1 : Shape := ⟨2, ![8, 1]⟩
abbrev S8x3 : Shape := ⟨2, ![8, 3]⟩
abbrev S4096x3 : Shape := ⟨2, ![4096, 3]⟩
abbrev S1024x512 : Shape := ⟨2, ![1024, 512]⟩
abbrev S1024x1024 : Shape := ⟨2, ![1024, 1024]⟩
abbrev S1024x3 : Shape := ⟨2, ![1024, 3]⟩
abbrev S1024x1 : Shape := ⟨2, ![1024, 1]⟩

abbrev nBuf : Space → Nat
  | .hbm => 17
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x4096, .f32⟩
  | .hbm, ⟨4, _⟩ => ⟨S4096x8, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S8x1, .f32⟩
  | .hbm, ⟨12, _⟩ => ⟨S8x1, .f32⟩
  | .hbm, ⟨13, _⟩ => ⟨S8x1, .f32⟩
  | .hbm, ⟨14, _⟩ => ⟨S8x3, .f32⟩
  | .hbm, ⟨15, _⟩ => ⟨S4096x3, .f32⟩
  | .hbm, ⟨16, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x4096, .f32⟩
  | .local _ .vmem, ⟨9, _⟩ => ⟨S512x4096, .f32⟩
  | .local _ .vmem, ⟨10, _⟩ => ⟨S4096x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x1024, .bf16⟩
  | .local _ .vmem, ⟨18, _⟩ => ⟨S1024x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1024x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x3, .f32⟩
  | .local _ .vmem, ⟨26, _⟩ => ⟨S1024x3, .f32⟩
  | .local _ .vmem, ⟨27, _⟩ => ⟨S1024x512, .f32⟩
  | .local _ .vmem, ⟨28, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1024x3 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1024x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  reduces_S512x1024_S512 : S512x1024.Reduces [1] S512
  shapeCasts_S512_S512x1 : S512.ShapeCasts S512x1
  broadcasts_S512x1_S512x1024 : S512x1.Broadcasts S512x1024
  inb_S512x4096_S512x4096_0_0 : ∀ a, (![0, 0] : Fin 2 → Nat) a + S512x4096.size a ≤ S512x4096.size a
  h_S512x4096 : 0 < S512x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  bcast_S8_S8x1_0 : S8.BroadcastsInDim S8x1 (![0] : Fin 1 → Fin S8x1.rank)
  concatenates_S8x1_S8x1_S8x1_S8x3_d1 : Shape.Concatenates [S8x1, S8x1, S8x1] S8x3 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  broadcasts_S1024x1_S1024x512 : S1024x1.Broadcasts S1024x512
  dot_S512x4096_S4096x1024_S512x1024_1_0_0_1_n_n_wf : DotDims.WF S512x4096 S4096x1024 S512x1024 [1] [0] [0] [1] [] []
  dot_S4096x8_S8x3_S4096x3_1_0_0_1_n_n_wf : DotDims.WF S4096x8 S8x3 S4096x3 [1] [0] [0] [1] [] []
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .bf16 = 32 ∨ (Rect.block (s := S4096x1024) S512x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x4096.size a
  hwx2_0 : ∀ i : grid2.Coords, EltTy.bits .f32 = 32 ∨ (Rect.block (s := S4096x4096) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x4096.size a
  hwx2_1 : ∀ i : grid2.Coords, EltTy.bits .f32 = 32 ∨ (Rect.block (s := S4096x4096) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .bf16 = 32 ∨ (Rect.block (s := S4096x1024) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S4096x1024.size a
  hwx2_4 : ∀ i : grid2.Coords, EltTy.bits .bf16 = 32 ∨ (Rect.block (s := S4096x1024) S1024x1024.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S4096x1024.size a
  hwx2_5 : ∀ i : grid2.Coords, EltTy.bits .bf16 = 32 ∨ (Rect.block (s := S4096x1024) S512x1024.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x3.size a ≤ S4096x3.size a
  hwx2_6 : ∀ i : grid2.Coords, EltTy.bits .f32 = 32 ∨ (Rect.block (s := S4096x3) S1024x3.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x512.size a ≤ S4096x4096.size a
  hwx2_7 : ∀ i : grid2.Coords, EltTy.bits .f32 = 32 ∨ (Rect.block (s := S4096x4096) S1024x512.size (cc2_transform_7 i) (hinb2_7 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S4096x8_S8x3_S4096x3_1_0_0_1_n_n : DotDims S4096x8 S8x3 S4096x3 where
  lhsContracting := [1]
  rhsContracting := [0]
  lhsNonContracting := [0]
  rhsNonContracting := [1]
  lhsBatch := []
  rhsBatch := []
  wf := dot_S4096x8_S8x3_S4096x3_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0_0) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1024x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v1) S512x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v6) S1024x3.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v7) S1024x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S4096x8 : Shape := ⟨2, ![4096, 8]⟩
abbrev S8 : Shape := ⟨1, ![8]⟩
abbrev S1024x4096 : Shape := ⟨2, ![1024, 4096]⟩
abbrev S_ : Shape := ⟨0, ![]⟩
abbrev S8x1 : Shape := ⟨2, ![8, 1]⟩
abbrev S4096x1 : Shape := ⟨2, ![4096, 1]⟩
abbrev S4096 : Shape := ⟨1, ![4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x4096, .f32⟩
  | .hbm, ⟨4, _⟩ => ⟨S4096x8, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S4096x1024, .f32⟩
  | .hbm, ⟨9, _⟩ => ⟨S4096x1024, .f32⟩
  | .hbm, ⟨10, _⟩ => ⟨S1024x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S8x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .i1⟩
  | .hbm, ⟨27, _⟩ => ⟨S_, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .i1⟩
  | .hbm, ⟨41, _⟩ => ⟨S_, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S1024x4096, .f32⟩
  | .hbm, ⟨48, _⟩ => ⟨S4096x4096, .f32⟩
  | .hbm, ⟨49, _⟩ => ⟨S4096x4096, .f32⟩
  | .hbm, ⟨50, _⟩ => ⟨S8x1, .f32⟩
  | .hbm, ⟨51, _⟩ => ⟨S4096x1, .f32⟩
  | .hbm, ⟨52, _⟩ => ⟨S4096x4096, .f32⟩
  | .hbm, ⟨53, _⟩ => ⟨S4096x4096, .f32⟩
  | .hbm, ⟨54, _⟩ => ⟨S8x1, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  bcast_S8_S8x1_0 : S8.BroadcastsInDim S8x1 (![0] : Fin 1 → Fin S8x1.rank)
  bcast_S4096x1_S4096x4096_0_1 : S4096x1.BroadcastsInDim S4096x4096 (![0, 1] : Fin 2 → Fin S4096x4096.rank)
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  dot_S4096x4096_S4096x1024_S4096x1024_1_0_0_1_n_n_wf : DotDims.WF S4096x4096 S4096x1024 S4096x1024 [1] [0] [0] [1] [] []
  dot_S4096x1024_S1024x4096_S4096x4096_1_0_0_1_n_n_wf : DotDims.WF S4096x1024 S1024x4096 S4096x4096 [1] [0] [0] [1] [] []
  dot_S4096x8_S8x1_S4096x1_1_0_0_1_n_n_wf : DotDims.WF S4096x8 S8x1 S4096x1 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x8_S8x1_S4096x1_1_0_0_1_n_n : DotDims S4096x8 S8x1 S4096x1 where
  lhsContracting := [1]
  rhsContracting := [0]
  lhsNonContracting := [0]
  rhsNonContracting := [1]
  lhsBatch := []
  rhsBatch := []
  wf := dot_S4096x8_S8x1_S4096x1_1_0_0_1_n_n_wf

class Facts : Prop extends Facts₀ where

variable [Facts]
-- ==== Proof.BPrep.lean ====
/-
  The first region: one grid point takes a block of 512 rows of the two feature matrices and leaves, in the
  two output blocks, their difference and the second matrix's rows normalised twice.

  Stated at a parameter V, the core's buffer contents when the region is entered: each window's block at a
  point read off its array under V; what the body leaves in the two output blocks as a function of the two
  input blocks; the body's triple; the proof data of the pipeline (arrays as found, inputs left in place,
  outputs at the body's result, nothing owed); and the body obligation at every grid point.
-/
import proofs.«104118_j43800076484745_2_alg».proof.Proof.Gen.Kernel.Launch
import proofs.«104118_j43800076484745_2_alg».proof.Proof.Gen.Kernel.Skeleton
import proofs.«104118_j43800076484745_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512×1024 block as one rectangle. -/
abbrev r0 : Rect S512x1024 := Rect.unit (s := S512x1024) ![0, 0] S512x1024.size inb_S512x1024_S512x1024_0_0

/-- The normalised rows' block after the body, from the second input block. -/
def out0_2 (x1 : Vec F S512x1024 .f32) : Vec F S512x1024 .bf16 :=
  View.canon [⟨r0, k0_pay2 (View.ld x1 r0)⟩]
/-- The difference's block after the body, from the two input blocks. -/
def out0_3 (x0 x1 : Vec F S512x1024 .f32) : Vec F S512x1024 .bf16 :=
  View.canon [⟨r0, k0_pay1 (View.ld x0 r0) (View.ld x1 r0)⟩]

/-- One store of the whole rectangle covers the block. -/
theorem cover0 (p0 : Vec F S512x1024 .bf16) (y : S512x1024.Idx) :
    ∃ pc ∈ ([⟨r0, p0⟩] : List (View.Piece (Elt F) S512x1024 .bf16)), y ∈ pc.1.set :=
  View.cover_of_tiled [⟨r0, p0⟩] S512x1024.size (by rfl) y

set_option maxHeartbeats 1000000 in
/-- The body on whole staging memrefs: the inputs at contents x0, x1 and the outputs at anything; it ends with the
    inputs as they were and the outputs at out0_2 x1 and out0_3 x0 x1. -/
theorem sound_kernel0 (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .bf16) (harg3 : arg3.IsWhole) (arg4 : Memref sig .tc .vmem S512x1024 .bf16) (harg4 : arg4.IsWhole)
    (x0 x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x1) ∗ owns (c : Thread nD τ) arg4 fullShare (out0_3 x0 x1)) -∗ K ⟨⟩))
      ⊢ wp frame (wpE (defs₀ (F := F)) Variants.none c none) E (cc0__prep_kernel i arg1 harg1 arg2 harg2 arg3 harg3 arg4 harg4) K := by
  simp only [cc0__prep_kernel_eq_skeleton]; unfold cc0__prep_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-- The proof data of the first pipeline on core c: arrays as the region finds them; after the body each input's
    buffer at its block, the outputs at the body's results of the input blocks; the scoped rest and the generator
    register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BNeigh.lean ====
/-
  The second region: one grid point takes 512 rows of the adjacency matrix and the whole difference matrix and
  leaves, in the output block, those rows times the difference.

  Stated at a parameter V, the core's buffer contents when the region is entered: the windows' blocks, what the
  body leaves in the output block, the body's triple, the pipeline's proof data, and the body obligation.
-/
import proofs.«104118_j43800076484745_2_alg».proof.Proof.Gen.Kernel.Launch
import proofs.«104118_j43800076484745_2_alg».proof.Proof.Gen.Kernel.Skeleton
import proofs.«104118_j43800076484745_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole blocks as rectangles. -/
abbrev r1a : Rect S512x4096 := Rect.unit (s := S512x4096) ![0, 0] S512x4096.size inb_S512x4096_S512x4096_0_0
abbrev r1b : Rect S4096x1024 := Rect.unit (s := S4096x1024) ![0, 0] S4096x1024.size inb_S4096x1024_S4096x1024_0_0
abbrev r1c : Rect S512x1024 := Rect.unit (s := S512x1024) ![0, 0] S512x1024.size inb_S512x1024_S512x1024_0_0

/-- The output block after the body, from the two input blocks. -/
def out1_2 (x0 : Vec F S512x4096 .f32) (x1 : Vec F S4096x1024 .bf16) : Vec F S512x1024 .bf16 :=
  View.canon [⟨r1c, k1_pay1 (View.ld x0 r1a) (View.ld x1 r1b)⟩]

/-- One store of the whole rectangle covers the block. -/
theorem cover1 (p0 : Vec F S512x1024 .bf16) (y : S512x1024.Idx) :
    ∃ pc ∈ ([⟨r1c, p0⟩] : List (View.Piece (Elt F) S512x1024 .bf16)), y ∈ pc.1.set :=
  View.cover_of_tiled [⟨r1c, p0⟩] S512x1024.size (by rfl) y

set_option maxHeartbeats 1000000 in
/-- The body on whole staging memrefs: the inputs at contents x0, x1, the output at anything; it ends with the
    inputs as they were and the output at out1_2 x0 x1. -/
theorem sound_kernel1 (c : Dev nD) (E : Set ℕ) (i : grid1.Coords)
    (arg1 : Memref sig .tc .vmem S512x4096 .f32) (harg1 : arg1.IsWhole) (arg2 : Memref sig .tc .vmem S4096x1024 .bf16) (harg2 : arg2.IsWhole)
    (arg3 : Memref sig .tc .vmem S512x1024 .bf16) (harg3 : arg3.IsWhole)
    (x0 : Vec F S512x4096 .f32) (x1 : Vec F S4096x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__neigh_matmul_kernel i arg1 harg1 arg2 harg2 arg3 harg3) K := by
  simp only [cc1__neigh_matmul_kernel_eq_skeleton]; unfold cc1__neigh_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.BMain.lean ====
/-
  The third region: one grid point takes a 1024×512 tile of the two adjacency matrices, the 1024 rows and the
  512 rows of the normalised matrix and of the neigh matrix that the tile's rows and columns name, and the 1024
  rows of the persona weights, and leaves the output tile.

  The normalised matrix is read through two windows, and so is the neigh matrix: the core's full share of each of
  these two arrays is dealt in halves between the two windows on it.

  Stated at a parameter V, the core's buffer contents when the region is entered: the windows' blocks, what the
  body leaves in the output block, the body's triple, the pipeline's proof data, and the body obligation.
-/
import proofs.«104118_j43800076484745_2_alg».proof.Proof.Gen.Kernel.Launch
import proofs.«104118_j43800076484745_2_alg».proof.Proof.Gen.Kernel.Skeleton
import proofs.«104118_j43800076484745_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The whole blocks as rectangles. -/
abbrev r2t : Rect S1024x512 := Rect.unit (s := S1024x512) ![0, 0] S1024x512.size inb_S1024x512_S1024x512_0_0
abbrev r2i : Rect S1024x1024 := Rect.unit (s := S1024x1024) ![0, 0] S1024x1024.size inb_S1024x1024_S1024x1024_0_0
abbrev r2j : Rect S512x1024 := Rect.unit (s := S512x1024) ![0, 0] S512x1024.size inb_S512x1024_S512x1024_0_0
abbrev r2p : Rect S1024x3 := Rect.unit (s := S1024x3) ![0, 0] S1024x3.size inb_S1024x3_S1024x3_0_0

/-- The output tile after the body, from the seven input blocks (in the windows' order). -/
def out2_7 (x0 x1 : Vec F S1024x512 .f32) (x2 : Vec F S1024x1024 .bf16) (x3 : Vec F S512x1024 .bf16)
    (x4 : Vec F S1024x1024 .bf16) (x5 : Vec F S512x1024 .bf16) (x6 : Vec F S1024x3 .f32) : Vec F S1024x512 .f32 :=
  View.canon [⟨r2t, k2_pay1 (View.ld x2 r2i) (View.ld x3 r2j) (View.ld x4 r2i) (View.ld x5 r2j) (View.ld x0 r2t) (View.ld x1 r2t) (View.ld x6 r2p)⟩]

/-- One store of the whole rectangle covers the tile. -/
theorem cover2 (p0 : Vec F S1024x512 .f32) (y : S1024x512.Idx) :
    ∃ pc ∈ ([⟨r2t, p0⟩] : List (View.Piece (Elt F) S1024x512 .f32)), y ∈ pc.1.set :=
  View.cover_of_tiled [⟨r2t, p0⟩] S1024x512.size (by rfl) y

set_option maxHeartbeats 1000000 in
/-- The body on whole staging memrefs: the inputs at contents x0 … x6, the output at anything; it ends with the
    inputs as they were and the output at out2_7 of them. -/
theorem sound_kernel2 (c : Dev nD) (E : Set ℕ) (i : grid2.Coords)
    (arg2 : Memref sig .tc .vmem S1024x512 .f32) (harg2 : arg2.IsWhole) (arg3 : Memref sig .tc .vmem S1024x512 .f32) (harg3 : arg3.IsWhole)
    (arg4 : Memref sig .tc .vmem S1024x1024 .bf16) (harg4 : arg4.IsWhole) (arg5 : Memref sig .tc .vmem S512x1024 .bf16) (harg5 : arg5.IsWhole)
    (arg6 : Memref sig .tc .vmem S1024x1024 .bf16) (harg6 : arg6.IsWhole) (arg7 : Memref sig .tc .vmem S512x1024 .bf16) (harg7 : arg7.IsWhole)
    (arg8 : Memref sig .tc .vmem S1024x3 .f32) (harg8 : arg8.IsWhole) (arg9 : Memref sig .tc .vmem S1024x512 .f32) (harg9 : arg9.IsWhole)
    (x0 x1 : Vec F S1024x512 .f32) (x2 : Vec F S1024x1024 .bf16) (x3 : Vec F S512x1024 .bf16)
    (x4 : Vec F S1024x1024 .bf16) (x5 : Vec F S512x1024 .bf16) (x6 : Vec F S1024x3 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6
        ∗ (∃ d, owns (c : Thread nD τ) arg9 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6
            ∗ owns (c : Thread nD τ) arg9 fullShare (out2_7 x0 x1 x2 x3 x4 x5 x6)) -∗ K ⟨⟩))
      ⊢ wp frame (wpE (defs₀ (F := F)) Variants.none c none) E
          (cc2__main_kernel i arg2 harg2 arg3 harg3 arg4 harg4 arg5 harg5 arg6 harg6 arg7 harg7 arg8 harg8 arg9 harg9) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2 _)

/-- The proof data of the third pipeline on core c: the arrays as the region finds them; after the body each input's
    buffer at its block and the output's at the body's result; the two windows on the normalised matrix hold the
    left and the right half of the full share of it, and so do the two windows on the neigh matrix. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨2, _⟩ => fullShare.left
    | ⟨3, _⟩ => fullShare.right
    | ⟨4, _⟩ => fullShare.left
    | ⟨5, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.BShare.lean ====
/-
  The third region's arrays among the core's unscoped buffers.

  Eight windows sit on six distinct buffers: the two adjacency matrices, the normalised matrix (two windows), the
  neigh matrix (two windows), the persona weights and the output. Entering the region, the six buffers, each held
  whole at the full share, are dealt to the eight windows: a buffer under one window goes to it whole; a buffer
  under two windows is cut along the share, the left half to the first window and the right half to the second.
  Leaving it, the halves are joined again. Both directions are stated for any contents the windows hold, as long
  as two windows on one buffer hold the same contents.
-/
import proofs.«104118_j43800076484745_2_alg».proof.Proof.BMain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The six distinct buffers behind the eight windows' arrays. -/
theorem arrRefs2 : Finset.univ.image (Pipeline.arrRef spec2) = ([main_arg2, main_arg3, main_v0_0, main_v1, main_v6, main_v7] : List (Ref sig .tc)).toFinset := by decide

/-- The shares the windows hold their arrays at. -/
theorem share2_0 (c : Dev nD) : (dat2 V c).share 0 = fullShare := rfl
theorem share2_1 (c : Dev nD) : (dat2 V c).share 1 = fullShare := rfl
theorem share2_2 (c : Dev nD) : (dat2 V c).share 2 = fullShare.left := rfl
theorem share2_3 (c : Dev nD) : (dat2 V c).share 3 = fullShare.right := rfl
theorem share2_4 (c : Dev nD) : (dat2 V c).share 4 = fullShare.left := rfl
theorem share2_5 (c : Dev nD) : (dat2 V c).share 5 = fullShare.right := rfl
theorem share2_6 (c : Dev nD) : (dat2 V c).share 6 = fullShare := rfl
theorem share2_7 (c : Dev nD) : (dat2 V c).share 7 = fullShare := rfl

/-- The six buffers one by one. -/
theorem arrBufs2_eq (c : Dev nD) (Vc : (b : Ref sig .tc) → Buf (Elt F) ((c : Thread nD τ).loc b)) :
    (Pipeline.arrBufs spec2 c Vc : sProp 𝕄)
      = iprop((((c : Thread nD τ).loc main_arg2) ↦{fullShare} Vc main_arg2) ∗ (((c : Thread nD τ).loc main_arg3) ↦{fullShare} Vc main_arg3)
          ∗ (((c : Thread nD τ).loc main_v0_0) ↦{fullShare} Vc main_v0_0) ∗ (((c : Thread nD τ).loc main_v1) ↦{fullShare} Vc main_v1)
          ∗ (((c : Thread nD τ).loc main_v6) ↦{fullShare} Vc main_v6) ∗ (((c : Thread nD τ).loc main_v7) ↦{fullShare} Vc main_v7)) :=
  bigSep_eq_bigSepL_of_eq [main_arg2, main_arg3, main_v0_0, main_v1, main_v6, main_v7] arrRefs2 (by decide) _

/-- ENTRY: the six buffers whole at contents Vc are the eight windows' arrays at contents F, F reading Vc. -/
theorem arrays2_split (c : Dev nD) (Vc : (b : Ref sig .tc) → Buf (Elt F) ((c : Thread nD τ).loc b))
    (F₂ : (w : Fin cfg2.W) → Buf (Elt F) ((cfg2.win w).arr.view.loc (c.tc : Thread nD τ)))
    (hF : ∀ w, F₂ w = Vc (Pipeline.arrRef spec2 w)) :
    (Pipeline.arrBufs spec2 c Vc : sProp 𝕄) ⊢ (dat2 V c).arrays F₂ := by
  unfold Dat.arrays
  rw [arrBufs2_eq, bigSep_W2]
  rw [(arr_whole2 0).set_eq_univ, (arr_whole2 1).set_eq_univ, (arr_whole2 2).set_eq_univ,
    (arr_whole2 4).set_eq_univ, (arr_whole2 6).set_eq_univ, (arr_whole2 7).set_eq_univ,
    share2_0, share2_1, share2_2, share2_3, share2_4, share2_5, share2_6, share2_7,
    hF 0, hF 1, hF 2, hF 3, hF 4, hF 5, hF 6, hF 7]
  iintro ⟨H0, H1, H2, H3, H6, H7⟩
  ihave H2' := (pointsTo_share (PosShare.mem_left_op_right fullShare)).1 $$ H2
  icases H2' with ⟨H2a, H2b⟩
  ihave H3' := (pointsTo_share (PosShare.mem_left_op_right fullShare)).1 $$ H3
  icases H3' with ⟨H3a, H3b⟩
  isplitl [H0]; · iexact H0
  isplitl [H1]; · iexact H1
  isplitl [H2a]; · iexact H2a
  isplitl [H2b]; · iexact H2b
  isplitl [H3a]; · iexact H3a
  isplitl [H3b]; · iexact H3b
  isplitl [H6]; · iexact H6
  iexact H7

/-- EXIT: the eight windows' arrays at contents F are the six buffers whole at contents Vc, F reading Vc. -/
theorem arrays2_join (c : Dev nD) (Vc : (b : Ref sig .tc) → Buf (Elt F) ((c : Thread nD τ).loc b))
    (F₂ : (w : Fin cfg2.W) → Buf (Elt F) ((cfg2.win w).arr.view.loc (c.tc : Thread nD τ)))
    (hF : ∀ w, F₂ w = Vc (Pipeline.arrRef spec2 w)) :
    (dat2 V c).arrays F₂ ⊢ (Pipeline.arrBufs spec2 c Vc : sProp 𝕄) := by
  unfold Dat.arrays
  rw [arrBufs2_eq, bigSep_W2]
  rw [(arr_whole2 0).set_eq_univ, (arr_whole2 1).set_eq_univ, (arr_whole2 2).set_eq_univ,
    (arr_whole2 4).set_eq_univ, (arr_whole2 6).set_eq_univ, (arr_whole2 7).set_eq_univ,
    share2_0, share2_1, share2_2, share2_3, share2_4, share2_5, share2_6, share2_7,
    hF 0, hF 1, hF 2, hF 3, hF 4, hF 5, hF 6, hF 7]
  iintro ⟨H0, H1, H2a, H2b, H3a, H3b, H6, H7⟩
  isplitl [H0]; · iexact H0
  isplitl [H1]; · iexact H1
  isplitl [H2a H2b]
  · iapply (pointsTo_share (PosShare.mem_left_op_right fullShare)).2
    isplitl [H2a]; · iexact H2a
    iexact H2b
  isplitl [H3a H3b]
  · iapply (pointsTo_share (PosShare.mem_left_op_right fullShare)).2
    isplitl [H3a]; · iexact H3a
    iexact H3b
  isplitl [H6]; · iexact H6
  iexact H7

end Cert.Kernel.Fr

end
-- ==== Proof.BRun.lean ====
/-
  The whole run of the kernel's program: three kernel regions and one stretch of host operations between the
  second and the third.

  The core's unscoped buffers are followed from the launch to the return: at the launch they hold the launch
  memory; a region leaves its windows' arrays at what its write-backs make of them and every other buffer as it
  was; the host stretch applies its operations. Each region is entered from "every unscoped buffer at the
  boundary's contents, the generator register at some state, nothing owed" and left at the same with the next
  contents. The run's result: every weakly fair execution terminates, and every unscoped buffer ends at the last
  boundary's contents. From that, each argument array ends as launched (no host operation writes one and no
  region has one under an output window).
-/
import proofs.«104118_j43800076484745_2_alg».proof.Proof.BPrep
import proofs.«104118_j43800076484745_2_alg».proof.Proof.BNeigh
import proofs.«104118_j43800076484745_2_alg».proof.Proof.BMain
import proofs.«104118_j43800076484745_2_alg».proof.Proof.BShare
import proofs.«104118_j43800076484745_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch, which is where the first region is entered. -/
abbrev W0 : Dev nD → Valuation τ sig (Elt F) := fun c b => (s₀ m ρ).mem ((c : Dev nD), b)
abbrev B0 : (c : Dev nD) → (b : Ref sig .tc) → Buf (Elt F) ((c : Thread nD τ).loc b) := fun c b => W0 m ρ c b

/-- After the first region: its arrays at what the pipeline leaves, every other buffer as entered. -/
def W1 (c : Dev nD) : Valuation τ sig (Elt F) :=
  Pipeline.withArrays spec0 c (W0 m ρ c) fun w => (dat0 (B0 m ρ) c).arrAt w cfg0.N
theorem W1_arr (c : Dev nD) (w : Fin cfg0.W) :
    W1 m ρ c (Proc.devRef .tc (Pipeline.arrRef spec0 w)) = (dat0 (B0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev B1 : (c : Dev nD) → (b : Ref sig .tc) → Buf (Elt F) ((c : Thread nD τ).loc b) := fun c b => W1 m ρ c b
theorem hF0 (c : Dev nD) (w : Fin cfg0.W) : (dat0 (B0 m ρ) c).arrAt w cfg0.N = B1 m ρ c (Pipeline.arrRef spec0 w) :=
  (W1_arr m ρ c w).symm
theorem hrest0 (c : Dev nD) : ∀ b, b ∉ Finset.univ.image (Pipeline.arrRef spec0) → B1 m ρ c b = B0 m ρ c b :=
  fun b hb => W1_of_ne m ρ c b fun w e => hb (Finset.mem_image.mpr ⟨w, Finset.mem_univ _, e⟩)

/-- After the second region. -/
def W2 (c : Dev nD) : Valuation τ sig (Elt F) :=
  Pipeline.withArrays spec1 c (W1 m ρ c) fun w => (dat1 (B1 m ρ) c).arrAt w cfg1.N
theorem W2_arr (c : Dev nD) (w : Fin cfg1.W) :
    W2 m ρ c (Proc.devRef .tc (Pipeline.arrRef spec1 w)) = (dat1 (B1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev B2 : (c : Dev nD) → (b : Ref sig .tc) → Buf (Elt F) ((c : Thread nD τ).loc b) := fun c b => W2 m ρ c b
theorem hF1 (c : Dev nD) (w : Fin cfg1.W) : (dat1 (B1 m ρ) c).arrAt w cfg1.N = B2 m ρ c (Pipeline.arrRef spec1 w) :=
  (W2_arr m ρ c w).symm
theorem hrest1 (c : Dev nD) : ∀ b, b ∉ Finset.univ.image (Pipeline.arrRef spec1) → B2 m ρ c b = B1 m ρ c b :=
  fun b hb => W2_of_ne m ρ c b fun w e => hb (Finset.mem_image.mpr ⟨w, Finset.mem_univ _, e⟩)

/-- After the host stretch (the third region's entry). -/
abbrev W3 : Dev nD → Valuation τ sig (Elt F) := fun c => StableHlo.after hostOps2 (W2 m ρ c)
abbrev B3 : (c : Dev nD) → (b : Ref sig .tc) → Buf (Elt F) ((c : Thread nD τ).loc b) := fun c b => W3 m ρ c b
/-- A buffer the host stretch does not write keeps its contents. -/
theorem W3_of (c : Dev nD) (r : Ref sig .tc) (h : r ∉ hostOps2_W) : W3 m ρ c (Proc.devRef .tc r) = W2 m ρ c (Proc.devRef .tc r) :=
  StableHlo.after_of_writes_sub hostOps2 _ hostOps2_writes h

/-- After the third region: its one output array at what the pipeline leaves, every other buffer as entered (its
    input windows, two pairs of them on one array each, leave their arrays as found). -/
def W4 (c : Dev nD) : Valuation τ sig (Elt F) :=
  Function.update (W3 m ρ c) (Proc.devRef .tc main_v7) ((dat2 (B3 m ρ) c).arrAt 7 cfg2.N)
theorem W4_out (c : Dev nD) : W4 m ρ c (Proc.devRef .tc main_v7) = (dat2 (B3 m ρ) c).arrAt 7 cfg2.N := by
  unfold W4; exact Function.update_self ..
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) ..
abbrev B4 : (c : Dev nD) → (b : Ref sig .tc) → Buf (Elt F) ((c : Thread nD τ).loc b) := fun c b => W4 m ρ c b
theorem hF2 (c : Dev nD) (w : Fin cfg2.W) : (dat2 (B3 m ρ) c).arrAt w cfg2.N = B4 m ρ c (Pipeline.arrRef spec2 w) := by
  rcases (by decide : ∀ w : Fin 8, w = 7 ∨ ((cfg2.win w).isOut = false ∧ Pipeline.arrRef spec2 w ≠ main_v7)) w with rfl | ⟨hin, hne⟩
  · exact (W4_out m ρ c).symm
  · exact (((dat2 (B3 m ρ) c).arrAt_in w hin _).trans (A_eq2 (B3 m ρ) c w)).trans (W4_of_ne m ρ c _ hne).symm
theorem hrest2 (c : Dev nD) : ∀ b, b ∉ Finset.univ.image (Pipeline.arrRef spec2) → B4 m ρ c b = B3 m ρ c b :=
  fun b hb => W4_of_ne m ρ c b fun e => hb (Finset.mem_image.mpr ⟨7, Finset.mem_univ _, e.symm⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := (W1_arr m ρ c 0).trans (((dat0 (B0 m ρ) c).arrAt_in 0 rfl _).trans (A_eq0 (B0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := (W1_arr m ρ c 1).trans (((dat0 (B0 m ρ) c).arrAt_in 1 rfl _).trans (A_eq0 (B0 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 0).trans (((dat1 (B1 m ρ) c).arrAt_in 0 rfl _).trans (A_eq1 (B1 m ρ) c 0))
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (B0 m ρ) c
  | ⟨1, _⟩ => fun c => dat1 (B1 m ρ) c
  | ⟨2, _⟩ => fun c => dat2 (B3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
/-- The host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (B0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B0 m ρ c) (B1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator
    register goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (B1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B1 m ρ c) (B2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region: as the other two, but its eight windows sit on six buffers, so the arrays are dealt out of the
    six buffers and joined back into them along the share. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (B3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (B3 m ρ c)
  hentry c := by
    rw [Pipeline.ownSems0_none]
    have hsplit : (unscopedBufs c (B3 m ρ c) : sProp 𝕄)
        ⊢ iprop((pdats m ρ 2 c).arrays ((pdats m ρ 2 c).arrAt · 0) ∗ Pipeline.unscopedRest spec2 c (B3 m ρ c)) := by
      rw [Pipeline.unscopedBufs_split₀ (Pipeline.pin (pcfgs (F := F)) adm) 2 winFacts₀2.arr_unscoped c (B3 m ρ c)]
      exact sep_mono (arrays2_split (B3 m ρ) c (B3 m ρ c) _ (fun w => A_eq2 (B3 m ρ) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (B3 m ρ c))
        ⊢ (unscopedBufs c (B4 m ρ c) : sProp 𝕄) := by
      rw [Pipeline.unscopedBufs_split₀ (Pipeline.pin (pcfgs (F := F)) adm) 2 winFacts₀2.arr_unscoped c (B4 m ρ c)]
      refine sep_mono (arrays2_join (B3 m ρ) c (B4 m ρ c) _ (fun w => hF2 m ρ c w)) (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ) ]
/-- The program is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and in every final state every unscoped buffer of every core holds the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩)
    (run_all m ρ)

end Cert.Kernel.Fr

end
-- ==== Proof.IPrep.lean ====
/-
  The first region: one grid point takes a block of 512 rows of the two feature matrices and leaves, in the
  two output blocks, their difference and the second matrix's rows normalised twice.

  Stated at a parameter V, the core's buffer contents when the region is entered: each window's block at a
  point read off its array under V; what the body leaves in the two output blocks as a function of the two
  input blocks; the body's triple; the proof data of the pipeline (arrays as found, inputs left in place,
  outputs at the body's result, nothing owed); and the body obligation at every grid point.
-/
import proofs.«104118_j43800076484745_2_alg».proof.Proof.Gen.KernelIdeal.Launch
import proofs.«104118_j43800076484745_2_alg».proof.Proof.Gen.KernelIdeal.Skeleton
import proofs.«104118_j43800076484745_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512×1024 block as one rectangle. -/
abbrev r0 : Rect S512x1024 := Rect.unit (s := S512x1024) ![0, 0] S512x1024.size inb_S512x1024_S512x1024_0_0

/-- The normalised rows' block after the body, from the second input block. -/
def out0_2 (x1 : Vec F S512x1024 .f32) : Vec F S512x1024 .bf16 :=
  View.canon [⟨r0, k0_pay2 (View.ld x1 r0)⟩]
/-- The difference's block after the body, from the two input blocks. -/
def out0_3 (x0 x1 : Vec F S512x1024 .f32) : Vec F S512x1024 .bf16 :=
  View.canon [⟨r0, k0_pay1 (View.ld x0 r0) (View.ld x1 r0)⟩]

/-- One store of the whole rectangle covers the block. -/
theorem cover0 (p0 : Vec F S512x1024 .bf16) (y : S512x1024.Idx) :
    ∃ pc ∈ ([⟨r0, p0⟩] : List (View.Piece (Elt F) S512x1024 .bf16)), y ∈ pc.1.set :=
  View.cover_of_tiled [⟨r0, p0⟩] S512x1024.size (by rfl) y

set_option maxHeartbeats 1000000 in
/-- The body on whole staging memrefs: the inputs at contents x0, x1 and the outputs at anything; it ends with the
    inputs as they were and the outputs at out0_2 x1 and out0_3 x0 x1. -/
theorem sound_kernel0 (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .bf16) (harg3 : arg3.IsWhole) (arg4 : Memref sig .tc .vmem S512x1024 .bf16) (harg4 : arg4.IsWhole)
    (x0 x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x1) ∗ owns (c : Thread nD τ) arg4 fullShare (out0_3 x0 x1)) -∗ K ⟨⟩))
      ⊢ wp frame (wpE (defs₀ (F := F)) Variants.none c none) E (cc0__prep_kernel i arg1 harg1 arg2 harg2 arg3 harg3 arg4 harg4) K := by
  simp only [cc0__prep_kernel_eq_skeleton]; unfold cc0__prep_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-- The proof data of the first pipeline on core c: arrays as the region finds them; after the body each input's
    buffer at its block, the outputs at the body's results of the input blocks; the scoped rest and the generator
    register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.INeigh.lean ====
/-
  The second region: one grid point takes 512 rows of the adjacency matrix and the whole difference matrix and
  leaves, in the output block, those rows times the difference.

  Stated at a parameter V, the core's buffer contents when the region is entered: the windows' blocks, what the
  body leaves in the output block, the body's triple, the pipeline's proof data, and the body obligation.
-/
import proofs.«104118_j43800076484745_2_alg».proof.Proof.Gen.KernelIdeal.Launch
import proofs.«104118_j43800076484745_2_alg».proof.Proof.Gen.KernelIdeal.Skeleton
import proofs.«104118_j43800076484745_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole blocks as rectangles. -/
abbrev r1a : Rect S512x4096 := Rect.unit (s := S512x4096) ![0, 0] S512x4096.size inb_S512x4096_S512x4096_0_0
abbrev r1b : Rect S4096x1024 := Rect.unit (s := S4096x1024) ![0, 0] S4096x1024.size inb_S4096x1024_S4096x1024_0_0
abbrev r1c : Rect S512x1024 := Rect.unit (s := S512x1024) ![0, 0] S512x1024.size inb_S512x1024_S512x1024_0_0

/-- The output block after the body, from the two input blocks. -/
def out1_2 (x0 : Vec F S512x4096 .f32) (x1 : Vec F S4096x1024 .bf16) : Vec F S512x1024 .bf16 :=
  View.canon [⟨r1c, k1_pay1 (View.ld x0 r1a) (View.ld x1 r1b)⟩]

/-- One store of the whole rectangle covers the block. -/
theorem cover1 (p0 : Vec F S512x1024 .bf16) (y : S512x1024.Idx) :
    ∃ pc ∈ ([⟨r1c, p0⟩] : List (View.Piece (Elt F) S512x1024 .bf16)), y ∈ pc.1.set :=
  View.cover_of_tiled [⟨r1c, p0⟩] S512x1024.size (by rfl) y

set_option maxHeartbeats 1000000 in
/-- The body on whole staging memrefs: the inputs at contents x0, x1, the output at anything; it ends with the
    inputs as they were and the output at out1_2 x0 x1. -/
theorem sound_kernel1 (c : Dev nD) (E : Set ℕ) (i : grid1.Coords)
    (arg1 : Memref sig .tc .vmem S512x4096 .f32) (harg1 : arg1.IsWhole) (arg2 : Memref sig .tc .vmem S4096x1024 .bf16) (harg2 : arg2.IsWhole)
    (arg3 : Memref sig .tc .vmem S512x1024 .bf16) (harg3 : arg3.IsWhole)
    (x0 : Vec F S512x4096 .f32) (x1 : Vec F S4096x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__neigh_matmul_kernel i arg1 harg1 arg2 harg2 arg3 harg3) K := by
  simp only [cc1__neigh_matmul_kernel_eq_skeleton]; unfold cc1__neigh_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.IMain.lean ====
/-
  The third region: one grid point takes a 1024×512 tile of the two adjacency matrices, the 1024 rows and the
  512 rows of the normalised matrix and of the neigh matrix that the tile's rows and columns name, and the 1024
  rows of the persona weights, and leaves the output tile.

  The normalised matrix is read through two windows, and so is the neigh matrix: the core's full share of each of
  these two arrays is dealt in halves between the two windows on it.

  Stated at a parameter V, the core's buffer contents when the region is entered: the windows' blocks, what the
  body leaves in the output block, the body's triple, the pipeline's proof data, and the body obligation.
-/
import proofs.«104118_j43800076484745_2_alg».proof.Proof.Gen.KernelIdeal.Launch
import proofs.«104118_j43800076484745_2_alg».proof.Proof.Gen.KernelIdeal.Skeleton
import proofs.«104118_j43800076484745_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The whole blocks as rectangles. -/
abbrev r2t : Rect S1024x512 := Rect.unit (s := S1024x512) ![0, 0] S1024x512.size inb_S1024x512_S1024x512_0_0
abbrev r2i : Rect S1024x1024 := Rect.unit (s := S1024x1024) ![0, 0] S1024x1024.size inb_S1024x1024_S1024x1024_0_0
abbrev r2j : Rect S512x1024 := Rect.unit (s := S512x1024) ![0, 0] S512x1024.size inb_S512x1024_S512x1024_0_0
abbrev r2p : Rect S1024x3 := Rect.unit (s := S1024x3) ![0, 0] S1024x3.size inb_S1024x3_S1024x3_0_0

/-- The output tile after the body, from the seven input blocks (in the windows' order). -/
def out2_7 (x0 x1 : Vec F S1024x512 .f32) (x2 : Vec F S1024x1024 .bf16) (x3 : Vec F S512x1024 .bf16)
    (x4 : Vec F S1024x1024 .bf16) (x5 : Vec F S512x1024 .bf16) (x6 : Vec F S1024x3 .f32) : Vec F S1024x512 .f32 :=
  View.canon [⟨r2t, k2_pay1 (View.ld x2 r2i) (View.ld x3 r2j) (View.ld x4 r2i) (View.ld x5 r2j) (View.ld x0 r2t) (View.ld x1 r2t) (View.ld x6 r2p)⟩]

/-- One store of the whole rectangle covers the tile. -/
theorem cover2 (p0 : Vec F S1024x512 .f32) (y : S1024x512.Idx) :
    ∃ pc ∈ ([⟨r2t, p0⟩] : List (View.Piece (Elt F) S1024x512 .f32)), y ∈ pc.1.set :=
  View.cover_of_tiled [⟨r2t, p0⟩] S1024x512.size (by rfl) y

set_option maxHeartbeats 1000000 in
/-- The body on whole staging memrefs: the inputs at contents x0 … x6, the output at anything; it ends with the
    inputs as they were and the output at out2_7 of them. -/
theorem sound_kernel2 (c : Dev nD) (E : Set ℕ) (i : grid2.Coords)
    (arg2 : Memref sig .tc .vmem S1024x512 .f32) (harg2 : arg2.IsWhole) (arg3 : Memref sig .tc .vmem S1024x512 .f32) (harg3 : arg3.IsWhole)
    (arg4 : Memref sig .tc .vmem S1024x1024 .bf16) (harg4 : arg4.IsWhole) (arg5 : Memref sig .tc .vmem S512x1024 .bf16) (harg5 : arg5.IsWhole)
    (arg6 : Memref sig .tc .vmem S1024x1024 .bf16) (harg6 : arg6.IsWhole) (arg7 : Memref sig .tc .vmem S512x1024 .bf16) (harg7 : arg7.IsWhole)
    (arg8 : Memref sig .tc .vmem S1024x3 .f32) (harg8 : arg8.IsWhole) (arg9 : Memref sig .tc .vmem S1024x512 .f32) (harg9 : arg9.IsWhole)
    (x0 x1 : Vec F S1024x512 .f32) (x2 : Vec F S1024x1024 .bf16) (x3 : Vec F S512x1024 .bf16)
    (x4 : Vec F S1024x1024 .bf16) (x5 : Vec F S512x1024 .bf16) (x6 : Vec F S1024x3 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6
        ∗ (∃ d, owns (c : Thread nD τ) arg9 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6
            ∗ owns (c : Thread nD τ) arg9 fullShare (out2_7 x0 x1 x2 x3 x4 x5 x6)) -∗ K ⟨⟩))
      ⊢ wp frame (wpE (defs₀ (F := F)) Variants.none c none) E
          (cc2__main_kernel i arg2 harg2 arg3 harg3 arg4 harg4 arg5 harg5 arg6 harg6 arg7 harg7 arg8 harg8 arg9 harg9) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2 _)

/-- The proof data of the third pipeline on core c: the arrays as the region finds them; after the body each input's
    buffer at its block and the output's at the body's result; the two windows on the normalised matrix hold the
    left and the right half of the full share of it, and so do the two windows on the neigh matrix. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨2, _⟩ => fullShare.left
    | ⟨3, _⟩ => fullShare.right
    | ⟨4, _⟩ => fullShare.left
    | ⟨5, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.IShare.lean ====
/-
  The third region's arrays among the core's unscoped buffers.

  Eight windows sit on six distinct buffers: the two adjacency matrices, the normalised matrix (two windows), the
  neigh matrix (two windows), the persona weights and the output. Entering the region, the six buffers, each held
  whole at the full share, are dealt to the eight windows: a buffer under one window goes to it whole; a buffer
  under two windows is cut along the share, the left half to the first window and the right half to the second.
  Leaving it, the halves are joined again. Both directions are stated for any contents the windows hold, as long
  as two windows on one buffer hold the same contents.
-/
import proofs.«104118_j43800076484745_2_alg».proof.Proof.IMain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The six distinct buffers behind the eight windows' arrays. -/
theorem arrRefs2 : Finset.univ.image (Pipeline.arrRef spec2) = ([main_arg2, main_arg3, main_v0_0, main_v1, main_v6, main_v7] : List (Ref sig .tc)).toFinset := by decide

/-- The shares the windows hold their arrays at. -/
theorem share2_0 (c : Dev nD) : (dat2 V c).share 0 = fullShare := rfl
theorem share2_1 (c : Dev nD) : (dat2 V c).share 1 = fullShare := rfl
theorem share2_2 (c : Dev nD) : (dat2 V c).share 2 = fullShare.left := rfl
theorem share2_3 (c : Dev nD) : (dat2 V c).share 3 = fullShare.right := rfl
theorem share2_4 (c : Dev nD) : (dat2 V c).share 4 = fullShare.left := rfl
theorem share2_5 (c : Dev nD) : (dat2 V c).share 5 = fullShare.right := rfl
theorem share2_6 (c : Dev nD) : (dat2 V c).share 6 = fullShare := rfl
theorem share2_7 (c : Dev nD) : (dat2 V c).share 7 = fullShare := rfl

/-- The six buffers one by one. -/
theorem arrBufs2_eq (c : Dev nD) (Vc : (b : Ref sig .tc) → Buf (Elt F) ((c : Thread nD τ).loc b)) :
    (Pipeline.arrBufs spec2 c Vc : sProp 𝕄)
      = iprop((((c : Thread nD τ).loc main_arg2) ↦{fullShare} Vc main_arg2) ∗ (((c : Thread nD τ).loc main_arg3) ↦{fullShare} Vc main_arg3)
          ∗ (((c : Thread nD τ).loc main_v0_0) ↦{fullShare} Vc main_v0_0) ∗ (((c : Thread nD τ).loc main_v1) ↦{fullShare} Vc main_v1)
          ∗ (((c : Thread nD τ).loc main_v6) ↦{fullShare} Vc main_v6) ∗ (((c : Thread nD τ).loc main_v7) ↦{fullShare} Vc main_v7)) :=
  bigSep_eq_bigSepL_of_eq [main_arg2, main_arg3, main_v0_0, main_v1, main_v6, main_v7] arrRefs2 (by decide) _

/-- ENTRY: the six buffers whole at contents Vc are the eight windows' arrays at contents F, F reading Vc. -/
theorem arrays2_split (c : Dev nD) (Vc : (b : Ref sig .tc) → Buf (Elt F) ((c : Thread nD τ).loc b))
    (F₂ : (w : Fin cfg2.W) → Buf (Elt F) ((cfg2.win w).arr.view.loc (c.tc : Thread nD τ)))
    (hF : ∀ w, F₂ w = Vc (Pipeline.arrRef spec2 w)) :
    (Pipeline.arrBufs spec2 c Vc : sProp 𝕄) ⊢ (dat2 V c).arrays F₂ := by
  unfold Dat.arrays
  rw [arrBufs2_eq, bigSep_W2]
  rw [(arr_whole2 0).set_eq_univ, (arr_whole2 1).set_eq_univ, (arr_whole2 2).set_eq_univ,
    (arr_whole2 4).set_eq_univ, (arr_whole2 6).set_eq_univ, (arr_whole2 7).set_eq_univ,
    share2_0, share2_1, share2_2, share2_3, share2_4, share2_5, share2_6, share2_7,
    hF 0, hF 1, hF 2, hF 3, hF 4, hF 5, hF 6, hF 7]
  iintro ⟨H0, H1, H2, H3, H6, H7⟩
  ihave H2' := (pointsTo_share (PosShare.mem_left_op_right fullShare)).1 $$ H2
  icases H2' with ⟨H2a, H2b⟩
  ihave H3' := (pointsTo_share (PosShare.mem_left_op_right fullShare)).1 $$ H3
  icases H3' with ⟨H3a, H3b⟩
  isplitl [H0]; · iexact H0
  isplitl [H1]; · iexact H1
  isplitl [H2a]; · iexact H2a
  isplitl [H2b]; · iexact H2b
  isplitl [H3a]; · iexact H3a
  isplitl [H3b]; · iexact H3b
  isplitl [H6]; · iexact H6
  iexact H7

/-- EXIT: the eight windows' arrays at contents F are the six buffers whole at contents Vc, F reading Vc. -/
theorem arrays2_join (c : Dev nD) (Vc : (b : Ref sig .tc) → Buf (Elt F) ((c : Thread nD τ).loc b))
    (F₂ : (w : Fin cfg2.W) → Buf (Elt F) ((cfg2.win w).arr.view.loc (c.tc : Thread nD τ)))
    (hF : ∀ w, F₂ w = Vc (Pipeline.arrRef spec2 w)) :
    (dat2 V c).arrays F₂ ⊢ (Pipeline.arrBufs spec2 c Vc : sProp 𝕄) := by
  unfold Dat.arrays
  rw [arrBufs2_eq, bigSep_W2]
  rw [(arr_whole2 0).set_eq_univ, (arr_whole2 1).set_eq_univ, (arr_whole2 2).set_eq_univ,
    (arr_whole2 4).set_eq_univ, (arr_whole2 6).set_eq_univ, (arr_whole2 7).set_eq_univ,
    share2_0, share2_1, share2_2, share2_3, share2_4, share2_5, share2_6, share2_7,
    hF 0, hF 1, hF 2, hF 3, hF 4, hF 5, hF 6, hF 7]
  iintro ⟨H0, H1, H2a, H2b, H3a, H3b, H6, H7⟩
  isplitl [H0]; · iexact H0
  isplitl [H1]; · iexact H1
  isplitl [H2a H2b]
  · iapply (pointsTo_share (PosShare.mem_left_op_right fullShare)).2
    isplitl [H2a]; · iexact H2a
    iexact H2b
  isplitl [H3a H3b]
  · iapply (pointsTo_share (PosShare.mem_left_op_right fullShare)).2
    isplitl [H3a]; · iexact H3a
    iexact H3b
  isplitl [H6]; · iexact H6
  iexact H7

end Cert.KernelIdeal.Fr

end
-- ==== Proof.IRun.lean ====
/-
  The whole run of the kernel's program: three kernel regions and one stretch of host operations between the
  second and the third.

  The core's unscoped buffers are followed from the launch to the return: at the launch they hold the launch
  memory; a region leaves its windows' arrays at what its write-backs make of them and every other buffer as it
  was; the host stretch applies its operations. Each region is entered from "every unscoped buffer at the
  boundary's contents, the generator register at some state, nothing owed" and left at the same with the next
  contents. The run's result: every weakly fair execution terminates, and every unscoped buffer ends at the last
  boundary's contents. From that, each argument array ends as launched (no host operation writes one and no
  region has one under an output window).
-/
import proofs.«104118_j43800076484745_2_alg».proof.Proof.IPrep
import proofs.«104118_j43800076484745_2_alg».proof.Proof.INeigh
import proofs.«104118_j43800076484745_2_alg».proof.Proof.IMain
import proofs.«104118_j43800076484745_2_alg».proof.Proof.IShare
import proofs.«104118_j43800076484745_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch, which is where the first region is entered. -/
abbrev W0 : Dev nD → Valuation τ sig (Elt F) := fun c b => (s₀ m ρ).mem ((c : Dev nD), b)
abbrev B0 : (c : Dev nD) → (b : Ref sig .tc) → Buf (Elt F) ((c : Thread nD τ).loc b) := fun c b => W0 m ρ c b

/-- After the first region: its arrays at what the pipeline leaves, every other buffer as entered. -/
def W1 (c : Dev nD) : Valuation τ sig (Elt F) :=
  Pipeline.withArrays spec0 c (W0 m ρ c) fun w => (dat0 (B0 m ρ) c).arrAt w cfg0.N
theorem W1_arr (c : Dev nD) (w : Fin cfg0.W) :
    W1 m ρ c (Proc.devRef .tc (Pipeline.arrRef spec0 w)) = (dat0 (B0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev B1 : (c : Dev nD) → (b : Ref sig .tc) → Buf (Elt F) ((c : Thread nD τ).loc b) := fun c b => W1 m ρ c b
theorem hF0 (c : Dev nD) (w : Fin cfg0.W) : (dat0 (B0 m ρ) c).arrAt w cfg0.N = B1 m ρ c (Pipeline.arrRef spec0 w) :=
  (W1_arr m ρ c w).symm
theorem hrest0 (c : Dev nD) : ∀ b, b ∉ Finset.univ.image (Pipeline.arrRef spec0) → B1 m ρ c b = B0 m ρ c b :=
  fun b hb => W1_of_ne m ρ c b fun w e => hb (Finset.mem_image.mpr ⟨w, Finset.mem_univ _, e⟩)

/-- After the second region. -/
def W2 (c : Dev nD) : Valuation τ sig (Elt F) :=
  Pipeline.withArrays spec1 c (W1 m ρ c) fun w => (dat1 (B1 m ρ) c).arrAt w cfg1.N
theorem W2_arr (c : Dev nD) (w : Fin cfg1.W) :
    W2 m ρ c (Proc.devRef .tc (Pipeline.arrRef spec1 w)) = (dat1 (B1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev B2 : (c : Dev nD) → (b : Ref sig .tc) → Buf (Elt F) ((c : Thread nD τ).loc b) := fun c b => W2 m ρ c b
theorem hF1 (c : Dev nD) (w : Fin cfg1.W) : (dat1 (B1 m ρ) c).arrAt w cfg1.N = B2 m ρ c (Pipeline.arrRef spec1 w) :=
  (W2_arr m ρ c w).symm
theorem hrest1 (c : Dev nD) : ∀ b, b ∉ Finset.univ.image (Pipeline.arrRef spec1) → B2 m ρ c b = B1 m ρ c b :=
  fun b hb => W2_of_ne m ρ c b fun w e => hb (Finset.mem_image.mpr ⟨w, Finset.mem_univ _, e⟩)

/-- After the host stretch (the third region's entry). -/
abbrev W3 : Dev nD → Valuation τ sig (Elt F) := fun c => StableHlo.after hostOps2 (W2 m ρ c)
abbrev B3 : (c : Dev nD) → (b : Ref sig .tc) → Buf (Elt F) ((c : Thread nD τ).loc b) := fun c b => W3 m ρ c b
/-- A buffer the host stretch does not write keeps its contents. -/
theorem W3_of (c : Dev nD) (r : Ref sig .tc) (h : r ∉ hostOps2_W) : W3 m ρ c (Proc.devRef .tc r) = W2 m ρ c (Proc.devRef .tc r) :=
  StableHlo.after_of_writes_sub hostOps2 _ hostOps2_writes h

/-- After the third region: its one output array at what the pipeline leaves, every other buffer as entered (its
    input windows, two pairs of them on one array each, leave their arrays as found). -/
def W4 (c : Dev nD) : Valuation τ sig (Elt F) :=
  Function.update (W3 m ρ c) (Proc.devRef .tc main_v7) ((dat2 (B3 m ρ) c).arrAt 7 cfg2.N)
theorem W4_out (c : Dev nD) : W4 m ρ c (Proc.devRef .tc main_v7) = (dat2 (B3 m ρ) c).arrAt 7 cfg2.N := by
  unfold W4; exact Function.update_self ..
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) ..
abbrev B4 : (c : Dev nD) → (b : Ref sig .tc) → Buf (Elt F) ((c : Thread nD τ).loc b) := fun c b => W4 m ρ c b
theorem hF2 (c : Dev nD) (w : Fin cfg2.W) : (dat2 (B3 m ρ) c).arrAt w cfg2.N = B4 m ρ c (Pipeline.arrRef spec2 w) := by
  rcases (by decide : ∀ w : Fin 8, w = 7 ∨ ((cfg2.win w).isOut = false ∧ Pipeline.arrRef spec2 w ≠ main_v7)) w with rfl | ⟨hin, hne⟩
  · exact (W4_out m ρ c).symm
  · exact (((dat2 (B3 m ρ) c).arrAt_in w hin _).trans (A_eq2 (B3 m ρ) c w)).trans (W4_of_ne m ρ c _ hne).symm
theorem hrest2 (c : Dev nD) : ∀ b, b ∉ Finset.univ.image (Pipeline.arrRef spec2) → B4 m ρ c b = B3 m ρ c b :=
  fun b hb => W4_of_ne m ρ c b fun e => hb (Finset.mem_image.mpr ⟨7, Finset.mem_univ _, e.symm⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := (W1_arr m ρ c 0).trans (((dat0 (B0 m ρ) c).arrAt_in 0 rfl _).trans (A_eq0 (B0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := (W1_arr m ρ c 1).trans (((dat0 (B0 m ρ) c).arrAt_in 1 rfl _).trans (A_eq0 (B0 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 0).trans (((dat1 (B1 m ρ) c).arrAt_in 0 rfl _).trans (A_eq1 (B1 m ρ) c 0))
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (B0 m ρ) c
  | ⟨1, _⟩ => fun c => dat1 (B1 m ρ) c
  | ⟨2, _⟩ => fun c => dat2 (B3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
/-- The host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (B0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B0 m ρ c) (B1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator
    register goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (B1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B1 m ρ c) (B2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region: as the other two, but its eight windows sit on six buffers, so the arrays are dealt out of the
    six buffers and joined back into them along the share. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (B3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (B3 m ρ c)
  hentry c := by
    rw [Pipeline.ownSems0_none]
    have hsplit : (unscopedBufs c (B3 m ρ c) : sProp 𝕄)
        ⊢ iprop((pdats m ρ 2 c).arrays ((pdats m ρ 2 c).arrAt · 0) ∗ Pipeline.unscopedRest spec2 c (B3 m ρ c)) := by
      rw [Pipeline.unscopedBufs_split₀ (Pipeline.pin (pcfgs (F := F)) adm) 2 winFacts₀2.arr_unscoped c (B3 m ρ c)]
      exact sep_mono (arrays2_split (B3 m ρ) c (B3 m ρ c) _ (fun w => A_eq2 (B3 m ρ) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (B3 m ρ c))
        ⊢ (unscopedBufs c (B4 m ρ c) : sProp 𝕄) := by
      rw [Pipeline.unscopedBufs_split₀ (Pipeline.pin (pcfgs (F := F)) adm) 2 winFacts₀2.arr_unscoped c (B4 m ρ c)]
      refine sep_mono (arrays2_join (B3 m ρ) c (B4 m ρ c) _ (fun w => hF2 m ρ c w)) (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ) ]
/-- The program is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and in every final state every unscoped buffer of every core holds the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩)
    (run_all m ρ)

end Cert.KernelIdeal.Fr

end
-- ==== Proof.Spec.lean ====
/-
  The function both programs compute, entry by entry, on the extended reals.

  Inputs: X, Y : [4096,1024] (feature, next_feature), A, E : [4096,4096] (next_action, edges),
  P : [4096,8] (persona), a, b, g : [8] (the three weight vectors).

  * a row y of length 1024 is normalised by dividing each entry by den(sqrt(sum_k y_k * y_k)), where
    den(n) is n when n > 0 and 1 otherwise; a row of Y is normalised twice;
  * neigh(i, d) = sum_k A(i,k) * (X(k,d) - Y(k,d));
  * the persona weight of row i under a weight vector w is sum_p P(i,p) * w(p);
  * out(i,j) = ((A(i,j) * sum_d n(i,d) * n(j,d)) * pa(i) - E(i,j) * pb(i))
               + ((sum_d neigh(i,d) * neigh(j,d)) * 2^-10) * pg(i),
    with n the twice-normalised Y and pa, pb, pg the persona weights under a, b, g.
-/
import Idealize.ShloMosaic.PureOps.Ideal
import Idealize.ShloMosaic.Lib.ValueIdx

noncomputable section

open scoped BigOperators

namespace Cert.Spec

open Idealize.ShloMosaic Idealize.ShloMosaic.ValueIdx

/-- The literal zero and one of the comparison and the select, and the scale 2^-10. -/
abbrev zeroLit : EReal := Ideal.ofBits .f32 0x00000000#32
abbrev oneLit : EReal := Ideal.ofBits .f32 0x3F800000#32
abbrev scaleLit : EReal := Ideal.ofBits .f32 0x3A800000#32

/-- The safe denominator: the norm itself where it is positive, one elsewhere. -/
def den (n : EReal) : EReal :=
  Scalar.select (FloatOps.cmpf (F := Ideal) (φ := .f32) .ogt n zeroLit) n oneLit

/-- One row divided by the safe denominator of its Euclidean norm. -/
def rowNormalize (y : Fin 1024 → EReal) : Fin 1024 → EReal :=
  fun d => Ideal.div (y d) (den (Ideal.sqrt (∑ k : Fin 1024, y k * y k)))

/-- Row `i` of Y normalised twice. -/
def normedRow (Y : (⟨2, ![4096, 1024]⟩ : Shape).Idx → EReal) (i : Fin 4096) : Fin 1024 → EReal :=
  rowNormalize (rowNormalize fun d => Y (ix2 i d))

/-- Row `i` of A · (X − Y). -/
def neighRow (A : (⟨2, ![4096, 4096]⟩ : Shape).Idx → EReal) (X Y : (⟨2, ![4096, 1024]⟩ : Shape).Idx → EReal)
    (i : Fin 4096) : Fin 1024 → EReal :=
  fun d => ∑ k : Fin 4096, A (ix2 i k) * (X (ix2 k d) - Y (ix2 k d))

/-- The persona weight of row `i` under the weight vector `w`. -/
def weight (P : (⟨2, ![4096, 8]⟩ : Shape).Idx → EReal) (w : (⟨1, ![8]⟩ : Shape).Idx → EReal) (i : Fin 4096) : EReal :=
  ∑ p : Fin 8, P (ix2 i p) * w (ix1 p)

/-- One output entry from the two normalised rows, the two neigh rows, the two adjacency entries and the three
    persona weights of the row. -/
def entry (ni nj gi gj : Fin 1024 → EReal) (a e pa pb pg : EReal) : EReal :=
  ((a * ∑ d : Fin 1024, ni d * nj d) * pa - e * pb) + ((∑ d : Fin 1024, gi d * gj d) * scaleLit) * pg

/-- The output at row `i`, column `j`. -/
def outAt (X Y : (⟨2, ![4096, 1024]⟩ : Shape).Idx → EReal) (A E : (⟨2, ![4096, 4096]⟩ : Shape).Idx → EReal)
    (P : (⟨2, ![4096, 8]⟩ : Shape).Idx → EReal) (a b g : (⟨1, ![8]⟩ : Shape).Idx → EReal) (i j : Fin 4096) : EReal :=
  entry (normedRow Y i) (normedRow Y j) (neighRow A X Y i) (neighRow A X Y j) (A (ix2 i j)) (E (ix2 i j))
    (weight P a i) (weight P b i) (weight P g i)

/-- The whole output array. -/
def G (X Y : (⟨2, ![4096, 1024]⟩ : Shape).Idx → EReal) (A E : (⟨2, ![4096, 4096]⟩ : Shape).Idx → EReal)
    (P : (⟨2, ![4096, 8]⟩ : Shape).Idx → EReal) (a b g : (⟨1, ![8]⟩ : Shape).Idx → EReal) :
    (⟨2, ![4096, 4096]⟩ : Shape).Idx → EReal :=
  fun idx => outAt X Y A E P a b g (idx 0) (idx 1)

theorem G_apply (X Y : (⟨2, ![4096, 1024]⟩ : Shape).Idx → EReal) (A E : (⟨2, ![4096, 4096]⟩ : Shape).Idx → EReal)
    (P : (⟨2, ![4096, 8]⟩ : Shape).Idx → EReal) (a b g : (⟨1, ![8]⟩ : Shape).Idx → EReal) (i j : Fin 4096) :
    G X Y A E P a b g (ix2 i j) = outAt X Y A E P a b g i j := rfl

end Cert.Spec

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.PayPrep.lean ====
/-
  The first kernel's two stored blocks read at an index: the difference block is the entrywise difference of
  the two loaded blocks; the normalised block is each row of the second loaded block divided twice by the safe
  denominator of its Euclidean norm (the norm where it is positive, one elsewhere).
-/
import proofs.«104118_j43800076484745_2_alg».proof.Proof.Gen.KernelIdeal.Skeleton
import proofs.«104118_j43800076484745_2_alg».proof.Proof.Spec
import Idealize.ShloMosaic.Lib.ValueIdx
import Idealize.ShloMosaic.Lib.Pipeline.Value
import Idealize.ShloMosaic.PureOps.Ideal.Laws
import proofs.«104118_j43800076484745_2_alg».proof.Proof.LibKeepdims

noncomputable section

open scoped BigOperators

namespace Cert.KernelIdeal.Pay

open Idealize.ShloMosaic Idealize.ShloMosaic.ValueIdx Cert.KernelIdeal Cert.KernelIdeal.Gen

/-- The difference block at `(p, q)`: a change of float format is the identity on the extended reals. -/
theorem pay_diff (v0 v1 : Vec Ideal S512x1024 .f32) (p : Fin 512) (q : Fin 1024) :
    k0_pay1 (F := Ideal) v0 v1 (ix2 p q) = v0 (ix2 p q) - v1 (ix2 p q) := rfl

/-- The squared Euclidean norm of each row of a [512, 1024] block, kept as a [512, 1] column. -/
def rowSquares (x : FVec Ideal S512x1024 .f32) : FVec Ideal S512x1 .f32 :=
  shapeCast S512x1
    (multiReduction .add [1] S512 (mulf x x) 0x00000000#32 reduces_S512x1024_S512 (.inl rfl) rfl)
    shapeCasts_S512_S512x1

/-- One normalisation of a [512, 1024] block as the kernel writes it: each entry divided by the column of safe
    denominators stretched over the 1024 columns. -/
def normStep (x : FVec Ideal S512x1024 .f32) : FVec Ideal S512x1024 .f32 :=
  divf x
    (broadcastTo S512x1024
      (select (cmpf .ogt (sqrt (rowSquares x)) (broadcast S512x1 (Scalar.ofBits .f32 0x00000000#32)))
        (sqrt (rowSquares x)) (broadcast S512x1 (Scalar.ofBits .f32 0x3F800000#32)))
      broadcasts_S512x1_S512x1024)

/-- The column of squared norms at row `p`: the sum of the squares of the row's 1024 entries. -/
theorem rowSquares_apply (x : FVec Ideal S512x1024 .f32) (p : Fin 512) (u : Fin 1) :
    rowSquares x (ix2 p u) = ∑ k : Fin 1024, x (ix2 p k) * x (ix2 p k) :=
  (shapeCast_a_a1_apply _ shapeCasts_S512_S512x1 p u).trans
    (multiReduction_add_rows_apply (mulf x x) 0x00000000#32 reduces_S512x1024_S512 (.inl rfl) rfl p)

/-- One normalisation at `(p, q)`: row `p` normalised, at `q`. -/
theorem normStep_apply (x : FVec Ideal S512x1024 .f32) (p : Fin 512) (q : Fin 1024) :
    normStep x (ix2 p q) = Cert.Spec.rowNormalize (fun d => x (ix2 p d)) q := by
  unfold normStep Cert.Spec.rowNormalize Cert.Spec.den
  refine congrArg (Ideal.div (x (ix2 p q))) ?_
  refine (broadcastTo_a1_ab_apply _ broadcasts_S512x1_S512x1024 p q).trans ?_
  exact congrArg
    (fun n : EReal => Scalar.select (FloatOps.cmpf (F := Ideal) (φ := .f32) .ogt (Ideal.sqrt n) Cert.Spec.zeroLit)
      (Ideal.sqrt n) Cert.Spec.oneLit)
    (rowSquares_apply x p (0 : Fin 1))

/-- The normalised block at `(p, q)`: row `p` of the loaded block normalised twice, at `q`. A change of float
    format is the identity on the extended reals. -/
theorem pay_normed (v1 : Vec Ideal S512x1024 .f32) (p : Fin 512) (q : Fin 1024) :
    k0_pay2 (F := Ideal) v1 (ix2 p q)
      = Cert.Spec.rowNormalize (Cert.Spec.rowNormalize fun d => v1 (ix2 p d)) q := by
  have h : k0_pay2 (F := Ideal) v1 (ix2 p q) = normStep (normStep v1) (ix2 p q) := rfl
  rw [h, normStep_apply]
  exact congrArg (fun y => Cert.Spec.rowNormalize y q) (funext fun d => normStep_apply v1 p d)

end Cert.KernelIdeal.Pay

end
-- ==== Proof.ValPrep.lean ====
/-
  The first region's two output arrays as whole-array functions of the region's input arrays: every grid point
  writes back block t of one function of the arrays (rows 512·t … 512·t + 511), and the eight blocks cover the
  rows, so after the region the difference array is X − Y entry by entry and the other array holds the rows of
  Y normalised twice.
-/
import proofs.«104118_j43800076484745_2_alg».proof.Proof.IPrep
import proofs.«104118_j43800076484745_2_alg».proof.Proof.PayPrep
import proofs.«104118_j43800076484745_2_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The four windows' block indices at point t: block row t, block column 0. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The first input block at (p, q) is X at row 512·t + p. -/
theorem iblk0_0_at (c : Dev nD) (t : Fin cfg0.N) (p : Fin 512) (q : Fin 1024) (r : Fin 4096)
    (hr : r.val = 512 * t.val + p.val) :
    (iblk0 V c 0 t : Vec Ideal S512x1024 .f32) (ix2 p q) = (V c main_arg0 : S4096x1024.Idx → EReal) (ix2 r q) := by
  obtain ⟨e0, e1, -⟩ := index0 t
  unfold iblk0
  rw [View.read_apply]
  show V c main_arg0 _ = V c main_arg0 _
  congr 1
  funext a
  apply Fin.ext
  match a with
  | ⟨0, _⟩ => show win0_0.index t (0 : Fin 2) * 512 + 1 * p.val = r.val; omega
  | ⟨1, _⟩ => show win0_0.index t (1 : Fin 2) * 1024 + 1 * q.val = q.val; omega

/-- The second input block at (p, q) is Y at row 512·t + p. -/
theorem iblk0_1_at (c : Dev nD) (t : Fin cfg0.N) (p : Fin 512) (q : Fin 1024) (r : Fin 4096)
    (hr : r.val = 512 * t.val + p.val) :
    (iblk0 V c 1 t : Vec Ideal S512x1024 .f32) (ix2 p q) = (V c main_arg1 : S4096x1024.Idx → EReal) (ix2 r q) := by
  obtain ⟨-, -, e0, e1, -⟩ := index0 t
  unfold iblk0
  rw [View.read_apply]
  show V c main_arg1 _ = V c main_arg1 _
  congr 1
  funext a
  apply Fin.ext
  match a with
  | ⟨0, _⟩ => show win0_1.index t (0 : Fin 2) * 512 + 1 * p.val = r.val; omega
  | ⟨1, _⟩ => show win0_1.index t (1 : Fin 2) * 1024 + 1 * q.val = q.val; omega

/-- Where point t's block of the normalised array puts its entry (p, q): row 512·t + p. -/
theorem emb0_2 (t : Fin cfg0.N) (p : Fin 512) (q : Fin 1024) (r : Fin 4096) (hr : r.val = 512 * t.val + p.val) :
    ((cfg0.win 2).blk t).view.emb (ix2 p q) = (ix2 r q : S4096x1024.Idx) := by
  obtain ⟨-, -, -, -, e0, e1, -⟩ := index0 t
  funext a
  apply Fin.ext
  match a with
  | ⟨0, _⟩ => show win0_2.index t (0 : Fin 2) * 512 + 1 * p.val = r.val; omega
  | ⟨1, _⟩ => show win0_2.index t (1 : Fin 2) * 1024 + 1 * q.val = q.val; omega

/-- Where point t's block of the difference array puts its entry (p, q): row 512·t + p. -/
theorem emb0_3 (t : Fin cfg0.N) (p : Fin 512) (q : Fin 1024) (r : Fin 4096) (hr : r.val = 512 * t.val + p.val) :
    ((cfg0.win 3).blk t).view.emb (ix2 p q) = (ix2 r q : S4096x1024.Idx) := by
  obtain ⟨-, -, -, -, -, -, e0, e1⟩ := index0 t
  funext a
  apply Fin.ext
  match a with
  | ⟨0, _⟩ => show win0_3.index t (0 : Fin 2) * 512 + 1 * p.val = r.val; omega
  | ⟨1, _⟩ => show win0_3.index t (1 : Fin 2) * 1024 + 1 * q.val = q.val; omega

/-- The row of the array that point t's block row p is. -/
def rowOf0 (t : Fin cfg0.N) (p : Fin 512) : Fin 4096 := ⟨512 * t.val + p.val, by
  have ht : t.val < 8 := t.isLt
  have hp := p.isLt
  omega⟩

/-! ## The difference array -/

/-- What point t writes back to the difference array is block t of X − Y. -/
theorem flushed0_3_eq (c : Dev nD) (t : Fin cfg0.N) (X Y : S4096x1024.Idx → EReal)
    (hX : (V c main_arg0 : S4096x1024.Idx → EReal) = X) (hY : (V c main_arg1 : S4096x1024.Idx → EReal) = Y) :
    (dat0 (F := Ideal) V c).flushed 3 t = ((cfg0.win 3).blk t).view.read (Elt Ideal) (fun idx => X idx - Y idx) := by
  subst hX hY
  show (cfg0.win 3).cut (grid0.coords t) ((dat0 V c).after 3 t) = _
  rw [after0_3]
  unfold out0_3
  rw [View.canon_unit_zero zero_off]
  simp only [View.ld_unit_zero (S := S512x1024) zero_off]
  funext j
  revert j
  show ∀ j : S512x1024.Idx, _
  intro j
  obtain ⟨p, q, rfl⟩ : ∃ (p : Fin 512) (q : Fin 1024), j = ix2 p q := ⟨j 0, j 1, eq_ix2 j⟩
  rw [View.read_apply, emb0_3 t p q (rowOf0 t p) rfl]
  refine (pay_diff _ _ p q).trans ?_
  rw [iblk0_0_at V c t p q (rowOf0 t p) rfl, iblk0_1_at V c t p q (rowOf0 t p) rfl]
  rfl

/-- An index of the difference array is in point t's block iff each coordinate is in the block's range. -/
theorem mem_blk0_3 (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v0_1).slice (win0_3.rect t)).set ↔ _
  rw [View.set_slice_whole, Rect.mem_set_unit]
  exact Iff.rfl

/-- Row r of the difference array is in the block of point r / 512. -/
theorem cover0_3 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have ht : (i 0).val / 512 < 8 := by omega
  refine ⟨⟨(i 0).val / 512, ht⟩, flush0_3 _, ?_⟩
  rw [mem_blk0_3]
  obtain ⟨-, -, -, -, -, -, e0, e1⟩ := index0 ⟨(i 0).val / 512, ht⟩
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, ht⟩ (1 : Fin 2) * 1024 ≤ (i 1).val
      ∧ (i 1).val < win0_3.index ⟨(i 0).val / 512, ht⟩ (1 : Fin 2) * 1024 + 1024
    rw [e1]; omega

/-- After the region the difference array is X − Y entry by entry. -/
theorem final0_3 (c : Dev nD) (X Y : S4096x1024.Idx → EReal)
    (hX : (V c main_arg0 : S4096x1024.Idx → EReal) = X) (hY : (V c main_arg1 : S4096x1024.Idx → EReal) = Y) :
    (dat0 (F := Ideal) V c).arrAt 3 cfg0.N = fun idx => X idx - Y idx :=
  (dat0 (F := Ideal) V c).arrAt_eq_of_cover 3 (fun idx => X idx - Y idx)
    (fun t _ => flushed0_3_eq V c t X Y hX hY) cover0_3

/-! ## The normalised array -/

/-- What point t writes back to the normalised array is block t of the rows of Y normalised twice. -/
theorem flushed0_2_eq (c : Dev nD) (t : Fin cfg0.N) (Y : S4096x1024.Idx → EReal)
    (hY : (V c main_arg1 : S4096x1024.Idx → EReal) = Y) :
    (dat0 (F := Ideal) V c).flushed 2 t = ((cfg0.win 2).blk t).view.read (Elt Ideal)
      (fun idx => Cert.Spec.normedRow Y (idx 0) (idx 1)) := by
  subst hY
  show (cfg0.win 2).cut (grid0.coords t) ((dat0 V c).after 2 t) = _
  rw [after0_2]
  unfold out0_2
  rw [View.canon_unit_zero zero_off]
  simp only [View.ld_unit_zero (S := S512x1024) zero_off]
  funext j
  revert j
  show ∀ j : S512x1024.Idx, _
  intro j
  obtain ⟨p, q, rfl⟩ : ∃ (p : Fin 512) (q : Fin 1024), j = ix2 p q := ⟨j 0, j 1, eq_ix2 j⟩
  rw [View.read_apply, emb0_2 t p q (rowOf0 t p) rfl]
  refine (pay_normed _ p q).trans ?_
  have e : (fun d => (iblk0 V c 1 t : Vec Ideal S512x1024 .f32) (ix2 p d))
      = fun d => (V c main_arg1 : S4096x1024.Idx → EReal) (ix2 (rowOf0 t p) d) :=
    funext fun d => iblk0_1_at V c t p d (rowOf0 t p) rfl
  exact congrArg (fun y => Cert.Spec.rowNormalize (Cert.Spec.rowNormalize y) q) e

/-- An index of the normalised array is in point t's block iff each coordinate is in the block's range. -/
theorem mem_blk0_2 (t : Fin cfg0.N) (i : S4096x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v0_0).slice (win0_2.rect t)).set ↔ _
  rw [View.set_slice_whole, Rect.mem_set_unit]
  exact Iff.rfl

/-- Row r of the normalised array is in the block of point r / 512. -/
theorem cover0_2 (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have ht : (i 0).val / 512 < 8 := by omega
  refine ⟨⟨(i 0).val / 512, ht⟩, flush0_2 _, ?_⟩
  rw [mem_blk0_2]
  obtain ⟨-, -, -, -, e0, e1, -⟩ := index0 ⟨(i 0).val / 512, ht⟩
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_2.index ⟨(i 0).val / 512, ht⟩ (1 : Fin 2) * 1024 ≤ (i 1).val
      ∧ (i 1).val < win0_2.index ⟨(i 0).val / 512, ht⟩ (1 : Fin 2) * 1024 + 1024
    rw [e1]; omega

/-- After the region the normalised array holds the rows of Y normalised twice. -/
theorem final0_2 (c : Dev nD) (Y : S4096x1024.Idx → EReal)
    (hY : (V c main_arg1 : S4096x1024.Idx → EReal) = Y) :
    (dat0 (F := Ideal) V c).arrAt 2 cfg0.N = fun idx => Cert.Spec.normedRow Y (idx 0) (idx 1) :=
  (dat0 (F := Ideal) V c).arrAt_eq_of_cover 2 (fun idx => Cert.Spec.normedRow Y (idx 0) (idx 1))
    (fun t _ => flushed0_2_eq V c t Y hY) cover0_2

end Cert.KernelIdeal.Val

end
-- ==== Proof.PayNeigh.lean ====
/-
  The second kernel's stored block read at an index: the product of the loaded [512, 4096] block with the
  loaded [4096, 1024] block, at `(p, q)`, is the sum over the inner coordinate `k` of the left block at
  `(p, k)` times the right block at `(k, q)`. A change of float format and a cast to the same shape are the
  identity on the extended reals, and the accumulator is the zero word.
-/
import proofs.«104118_j43800076484745_2_alg».proof.Proof.Gen.KernelIdeal.Skeleton
import proofs.«104118_j43800076484745_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! The operand indices of the product at an output index and a contraction index, coordinate by coordinate. -/

theorem neighDot_lhs0 (j : S512x1024.Idx) (c : dot_S512x4096_S4096x1024_S512x1024_1_0_0_1_n_n.contr.Idx) : (dot_S512x4096_S4096x1024_S512x1024_1_0_0_1_n_n.lhsIdx j c 0).val = (j 0).val := by
  unfold DotDims.lhsIdx
  rw [dif_neg (show ¬(0 : Fin S512x4096.rank) ∈ dot_S512x4096_S4096x1024_S512x1024_1_0_0_1_n_n.lhsBatch by decide),
    dif_pos (show (0 : Fin S512x4096.rank) ∈ dot_S512x4096_S4096x1024_S512x1024_1_0_0_1_n_n.lhsNonContracting by decide)]
  rfl
theorem neighDot_lhs1 (j : S512x1024.Idx) (c : dot_S512x4096_S4096x1024_S512x1024_1_0_0_1_n_n.contr.Idx) : (dot_S512x4096_S4096x1024_S512x1024_1_0_0_1_n_n.lhsIdx j c 1).val = (c ⟨0, by decide⟩).val :=
  dot_S512x4096_S4096x1024_S512x1024_1_0_0_1_n_n.lhsIdx_val_of_single rfl j c
theorem neighDot_rhs0 (j : S512x1024.Idx) (c : dot_S512x4096_S4096x1024_S512x1024_1_0_0_1_n_n.contr.Idx) : (dot_S512x4096_S4096x1024_S512x1024_1_0_0_1_n_n.rhsIdx j c 0).val = (c ⟨0, by decide⟩).val :=
  dot_S512x4096_S4096x1024_S512x1024_1_0_0_1_n_n.rhsIdx_val_of_single rfl j c
theorem neighDot_rhs1 (j : S512x1024.Idx) (c : dot_S512x4096_S4096x1024_S512x1024_1_0_0_1_n_n.contr.Idx) : (dot_S512x4096_S4096x1024_S512x1024_1_0_0_1_n_n.rhsIdx j c 1).val = (j 1).val := by
  unfold DotDims.rhsIdx
  rw [dif_neg (show ¬(1 : Fin S4096x1024.rank) ∈ dot_S512x4096_S4096x1024_S512x1024_1_0_0_1_n_n.rhsBatch by decide),
    dif_pos (show (1 : Fin S4096x1024.rank) ∈ dot_S512x4096_S4096x1024_S512x1024_1_0_0_1_n_n.rhsNonContracting by decide)]
  rfl

/-- The product that contracts the left operand's second axis with the right operand's first, into the zero
    accumulator, at `(p, q)`, as a sum over the inner coordinate. -/
theorem matmul_rows_cols_apply (lhs : FVec Ideal S512x4096 .bf16) (rhs : FVec Ideal S4096x1024 .bf16)
    (p : Fin 512) (q : Fin 1024) :
    FloatOps.matmul dot_S512x4096_S4096x1024_S512x1024_1_0_0_1_n_n none lhs rhs
        (constant (F := Ideal) S512x1024 .f32 0x00000000#32) (ix2 p q)
      = ∑ k : Fin 4096, lhs (ix2 p k) * rhs (ix2 k q) := by
  rw [Ideal.matmul_constant_zero_apply,
    ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p q)
      ((contrEquiv1 dot_S512x4096_S4096x1024_S512x1024_1_0_0_1_n_n 4096 rfl rfl).symm k) = ix2 p k :=
    funext fun a => Fin.ext (by
      match a with
      | ⟨0, _⟩ => exact neighDot_lhs0 _ _
      | ⟨1, _⟩ => exact (neighDot_lhs1 _ _).trans hk)
  have er : dot_S512x4096_S4096x1024_S512x1024_1_0_0_1_n_n.rhsIdx (ix2 p q)
      ((contrEquiv1 dot_S512x4096_S4096x1024_S512x1024_1_0_0_1_n_n 4096 rfl rfl).symm k) = ix2 k q :=
    funext fun a => Fin.ext (by
      match a with
      | ⟨0, _⟩ => exact (neighDot_rhs0 _ _).trans hk
      | ⟨1, _⟩ => exact neighDot_rhs1 _ _)
  rw [el, er]

/-- The stored block at `(p, q)`. -/
theorem pay_neigh (v0 : Vec Ideal S512x4096 .f32) (v2 : Vec Ideal S4096x1024 .bf16) (p : Fin 512) (q : Fin 1024) :
    k1_pay1 (F := Ideal) v0 v2 (ix2 p q) = ∑ k : Fin 4096, v0 (ix2 p k) * v2 (ix2 k q) := by
  unfold k1_pay1
  show FloatOps.matmul dot_S512x4096_S4096x1024_S512x1024_1_0_0_1_n_n none
      (truncf .bf16 v0 bitsLt_bf16_f32 : FVec Ideal S512x4096 .bf16)
      (shapeCast S4096x1024 v2 shapeCasts_S4096x1024_S4096x1024)
      (constant (F := Ideal) S512x1024 .f32 0x00000000#32) (ix2 p q) = _
  refine (matmul_rows_cols_apply _ _ p q).trans ?_
  rw [shapeCast_self]
  rfl

end Cert.KernelIdeal.Pay

end
-- ==== Proof.ValNeigh.lean ====
/-
  The second region's output array as a whole-array function of the region's input arrays: every grid point
  writes back block t (rows 512·t … 512·t + 511) of the product of the adjacency matrix with the difference
  matrix, and the eight blocks cover the rows, so after the region the array is that product entry by entry.
-/
import proofs.«104118_j43800076484745_2_alg».proof.Proof.INeigh
import proofs.«104118_j43800076484745_2_alg».proof.Proof.PayNeigh
import proofs.«104118_j43800076484745_2_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off1 : (![0, 0] : Fin 2 → Nat) = fun _ => 0 := funext fun a => by fin_cases a <;> rfl

/-- The three windows' block indices at point t: the adjacency rows and the output at block row t, the
    difference matrix whole. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The adjacency block at (p, k) is A at row 512·t + p. -/
theorem iblk1_0_at (c : Dev nD) (t : Fin cfg1.N) (p : Fin 512) (k : Fin 4096) (r : Fin 4096)
    (hr : r.val = 512 * t.val + p.val) :
    (iblk1 V c 0 t : Vec Ideal S512x4096 .f32) (ix2 p k) = (V c main_arg2 : S4096x4096.Idx → EReal) (ix2 r k) := by
  obtain ⟨e0, e1, -⟩ := index1 t
  unfold iblk1
  rw [View.read_apply]
  show V c main_arg2 _ = V c main_arg2 _
  congr 1
  funext a
  apply Fin.ext
  match a with
  | ⟨0, _⟩ => show win1_0.index t (0 : Fin 2) * 512 + 1 * p.val = r.val; omega
  | ⟨1, _⟩ => show win1_0.index t (1 : Fin 2) * 4096 + 1 * k.val = k.val; omega

/-- The difference matrix's block is the whole matrix. -/
theorem iblk1_1_at (c : Dev nD) (t : Fin cfg1.N) (k : Fin 4096) (q : Fin 1024) :
    (iblk1 V c 1 t : Vec Ideal S4096x1024 .bf16) (ix2 k q) = (V c main_v0_1 : S4096x1024.Idx → EReal) (ix2 k q) := by
  obtain ⟨-, -, e0, e1, -⟩ := index1 t
  unfold iblk1
  rw [View.read_apply]
  show V c main_v0_1 _ = V c main_v0_1 _
  congr 1
  funext a
  apply Fin.ext
  match a with
  | ⟨0, _⟩ => show win1_1.index t (0 : Fin 2) * 4096 + 1 * k.val = k.val; omega
  | ⟨1, _⟩ => show win1_1.index t (1 : Fin 2) * 1024 + 1 * q.val = q.val; omega

/-- Where point t's output block puts its entry (p, q): row 512·t + p. -/
theorem emb1_2 (t : Fin cfg1.N) (p : Fin 512) (q : Fin 1024) (r : Fin 4096) (hr : r.val = 512 * t.val + p.val) :
    ((cfg1.win 2).blk t).view.emb (ix2 p q) = (ix2 r q : S4096x1024.Idx) := by
  obtain ⟨-, -, -, -, e0, e1⟩ := index1 t
  funext a
  apply Fin.ext
  match a with
  | ⟨0, _⟩ => show win1_2.index t (0 : Fin 2) * 512 + 1 * p.val = r.val; omega
  | ⟨1, _⟩ => show win1_2.index t (1 : Fin 2) * 1024 + 1 * q.val = q.val; omega

/-- The row of the array that point t's block row p is. -/
def rowOf1 (t : Fin cfg1.N) (p : Fin 512) : Fin 4096 := ⟨512 * t.val + p.val, by
  have ht : t.val < 8 := t.isLt
  have hp := p.isLt
  omega⟩

/-- What point t writes back is block t of the product A · D. -/
theorem flushed1_2_eq (c : Dev nD) (t : Fin cfg1.N) (A : S4096x4096.Idx → EReal) (D : S4096x1024.Idx → EReal)
    (hA : (V c main_arg2 : S4096x4096.Idx → EReal) = A) (hD : (V c main_v0_1 : S4096x1024.Idx → EReal) = D) :
    (dat1 (F := Ideal) V c).flushed 2 t = ((cfg1.win 2).blk t).view.read (Elt Ideal)
      ((fun idx => ∑ k : Fin 4096, A (ix2 (n0 := 4096) (n1 := 4096) (idx 0) k) * D (ix2 (n0 := 4096) (n1 := 1024) k (idx 1))) : S4096x1024.Idx → EReal) := by
  subst hA hD
  show (cfg1.win 2).cut (grid1.coords t) ((dat1 V c).after 2 t) = _
  rw [after1_2]
  unfold out1_2
  rw [View.canon_unit_zero zero_off1]
  simp only [View.ld_unit_zero (S := S512x4096) zero_off1, View.ld_unit_zero (S := S4096x1024) zero_off1]
  funext j
  revert j
  show ∀ j : S512x1024.Idx, _
  intro j
  obtain ⟨p, q, rfl⟩ : ∃ (p : Fin 512) (q : Fin 1024), j = ix2 p q := ⟨j 0, j 1, eq_ix2 j⟩
  rw [View.read_apply, emb1_2 t p q (rowOf1 t p) rfl]
  refine (pay_neigh _ _ p q).trans ?_
  refine (Finset.sum_congr rfl fun k _ => ?_).trans rfl
  rw [iblk1_0_at V c t p k (rowOf1 t p) rfl, iblk1_1_at V c t k q]

/-- An index of the output array is in point t's block iff each coordinate is in the block's range. -/
theorem mem_blk1_2 (t : Fin cfg1.N) (i : S4096x1024.Idx) :
    i ∈ ((cfg1.win 2).blk t).view.set ↔ ∀ a : Fin 2, win1_2.index t a * S512x1024.size a ≤ (i a).val
      ∧ (i a).val < win1_2.index t a * S512x1024.size a + S512x1024.size a := by
  show i ∈ ((View.whole main_v1).slice (win1_2.rect t)).set ↔ _
  rw [View.set_slice_whole, Rect.mem_set_unit]
  exact Iff.rfl

/-- Row r of the output array is in the block of point r / 512. -/
theorem cover1_2 (i : S4096x1024.Idx) :
    ∃ t : Fin cfg1.N, (cfg1.win 2).flush t = true ∧ i ∈ ((cfg1.win 2).blk t).view.set := by
  have hi0 : (i 0).val < 4096 := (i 0).isLt
  have hi1 : (i 1).val < 1024 := (i 1).isLt
  have ht : (i 0).val / 512 < 8 := by omega
  refine ⟨⟨(i 0).val / 512, ht⟩, flush1_2 _, ?_⟩
  rw [mem_blk1_2]
  obtain ⟨-, -, -, -, e0, e1⟩ := index1 ⟨(i 0).val / 512, ht⟩
  intro a
  match a with
  | ⟨0, _⟩ =>
    show win1_2.index ⟨(i 0).val / 512, ht⟩ (0 : Fin 2) * 512 ≤ (i 0).val
      ∧ (i 0).val < win1_2.index ⟨(i 0).val / 512, ht⟩ (0 : Fin 2) * 512 + 512
    rw [e0]; show (i 0).val / 512 * 512 ≤ (i 0).val ∧ (i 0).val < (i 0).val / 512 * 512 + 512; omega
  | ⟨1, _⟩ =>
    show win1_2.index ⟨(i 0).val / 512, ht⟩ (1 : Fin 2) * 1024 ≤ (i 1).val
      ∧ (i 1).val < win1_2.index ⟨(i 0).val / 512, ht⟩ (1 : Fin 2) * 1024 + 1024
    rw [e1]; omega

/-- After the region the output array is the product A · D entry by entry. -/
theorem final1_2 (c : Dev nD) (A : S4096x4096.Idx → EReal) (D : S4096x1024.Idx → EReal)
    (hA : (V c main_arg2 : S4096x4096.Idx → EReal) = A) (hD : (V c main_v0_1 : S4096x1024.Idx → EReal) = D) :
    (dat1 (F := Ideal) V c).arrAt 2 cfg1.N
      = ((fun idx => ∑ k : Fin 4096, A (ix2 (n0 := 4096) (n1 := 4096) (idx 0) k) * D (ix2 (n0 := 4096) (n1 := 1024) k (idx 1))) : S4096x1024.Idx → EReal) :=
  (dat1 (F := Ideal) V c).arrAt_eq_of_cover 2 _ (fun t _ => flushed1_2_eq V c t A D hA hD) cover1_2

/-- With the difference matrix X − Y entering the region, the output array holds the rows of A · (X − Y). -/
theorem final1_2_neigh (c : Dev nD) (A : S4096x4096.Idx → EReal) (X Y : S4096x1024.Idx → EReal)
    (hA : (V c main_arg2 : S4096x4096.Idx → EReal) = A)
    (hD : (V c main_v0_1 : S4096x1024.Idx → EReal) = fun idx => X idx - Y idx) :
    (dat1 (F := Ideal) V c).arrAt 2 cfg1.N = ((fun idx => Cert.Spec.neighRow A X Y (idx 0) (idx 1)) : S4096x1024.Idx → EReal) :=
  (final1_2 V c A (fun idx => X idx - Y idx) hA hD).trans rfl

end Cert.KernelIdeal.Val

end
-- ==== Proof.PayMain.lean ====
/-
  The third kernel's stored block read at an index. With n_p, n_q the rows p and q of the two normalised
  blocks, g_p, g_q the rows of the two neigh blocks, a and e the two adjacency entries at (p, q) and w0, w1, w2
  the three persona weights of row p (the three columns of the [1024, 3] block), the stored entry is
  ((a * sum_d n_p(d) * n_q(d)) * w0 - e * w1) + ((sum_d g_p(d) * g_q(d)) * 2^-10) * w2.
  Both products contract the last axis of both operands; a cast to the same shape is the identity; the
  accumulators are the zero word.
-/
import proofs.«104118_j43800076484745_2_alg».proof.Proof.Gen.KernelIdeal.Skeleton
import proofs.«104118_j43800076484745_2_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«104118_j43800076484745_2_alg».proof.Proof.LibKeepdims

noncomputable section

open scoped BigOperators

namespace Cert.KernelIdeal.Pay

open Idealize.ShloMosaic Idealize.ShloMosaic.ValueIdx Cert.KernelIdeal Cert.KernelIdeal.Gen

/-! The operand indices of the product at an output index and a contraction index, coordinate by coordinate. -/

theorem mainDot_lhs0 (j : S1024x512.Idx) (c : dot_S1024x1024_S512x1024_S1024x512_1_1_0_0_n_n.contr.Idx) : (dot_S1024x1024_S512x1024_S1024x512_1_1_0_0_n_n.lhsIdx j c 0).val = (j 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl
theorem mainDot_lhs1 (j : S1024x512.Idx) (c : dot_S1024x1024_S512x1024_S1024x512_1_1_0_0_n_n.contr.Idx) : (dot_S1024x1024_S512x1024_S1024x512_1_1_0_0_n_n.lhsIdx j c 1).val = (c ⟨0, by decide⟩).val :=
  dot_S1024x1024_S512x1024_S1024x512_1_1_0_0_n_n.lhsIdx_val_of_single rfl j c
theorem mainDot_rhs1 (j : S1024x512.Idx) (c : dot_S1024x1024_S512x1024_S1024x512_1_1_0_0_n_n.contr.Idx) : (dot_S1024x1024_S512x1024_S1024x512_1_1_0_0_n_n.rhsIdx j c 1).val = (c ⟨0, by decide⟩).val :=
  dot_S1024x1024_S512x1024_S1024x512_1_1_0_0_n_n.rhsIdx_val_of_single rfl j c
theorem mainDot_rhs0 (j : S1024x512.Idx) (c : dot_S1024x1024_S512x1024_S1024x512_1_1_0_0_n_n.contr.Idx) : (dot_S1024x1024_S512x1024_S1024x512_1_1_0_0_n_n.rhsIdx j c 0).val = (j 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl

/-- The product that contracts the last axis of both operands, into the zero accumulator, at `(p, q)`, as a sum
    over the inner coordinate: row `p` of the left operand against row `q` of the right. -/
theorem matmul_rows_rows_apply (lhs : FVec Ideal S1024x1024 .bf16) (rhs : FVec Ideal S512x1024 .bf16)
    (p : Fin 1024) (q : Fin 512) :
    FloatOps.matmul dot_S1024x1024_S512x1024_S1024x512_1_1_0_0_n_n none lhs rhs
        (constant (F := Ideal) S1024x512 .f32 0x00000000#32) (ix2 p q)
      = ∑ d : Fin 1024, lhs (ix2 p d) * rhs (ix2 q d) := by
  rw [Ideal.matmul_constant_zero_apply,
    ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p q)
      ((contrEquiv1 dot_S1024x1024_S512x1024_S1024x512_1_1_0_0_n_n 1024 rfl rfl).symm k) = ix2 p k :=
    funext fun a => Fin.ext (by
      match a with
      | ⟨0, _⟩ => exact mainDot_lhs0 _ _
      | ⟨1, _⟩ => exact (mainDot_lhs1 _ _).trans hk)
  have er : dot_S1024x1024_S512x1024_S1024x512_1_1_0_0_n_n.rhsIdx (ix2 p q)
      ((contrEquiv1 dot_S1024x1024_S512x1024_S1024x512_1_1_0_0_n_n 1024 rfl rfl).symm k) = ix2 q k :=
    funext fun a => Fin.ext (by
      match a with
      | ⟨0, _⟩ => exact mainDot_rhs0 _ _
      | ⟨1, _⟩ => exact (mainDot_rhs1 _ _).trans hk)
  rw [el, er]

/-- The same product of two loaded blocks each first cast to its own shape. -/
theorem matmul_cast_rows_rows_apply (x : Vec Ideal S1024x1024 .bf16) (y : Vec Ideal S512x1024 .bf16)
    (p : Fin 1024) (q : Fin 512) :
    FloatOps.matmul dot_S1024x1024_S512x1024_S1024x512_1_1_0_0_n_n none
        (shapeCast S1024x1024 x shapeCasts_S1024x1024_S1024x1024 : FVec Ideal S1024x1024 .bf16)
        (shapeCast S512x1024 y shapeCasts_S512x1024_S512x1024 : FVec Ideal S512x1024 .bf16)
        (constant (F := Ideal) S1024x512 .f32 0x00000000#32) (ix2 p q)
      = ∑ d : Fin 1024, x (ix2 p d) * y (ix2 q d) := by
  refine (matmul_rows_rows_apply _ _ p q).trans ?_
  rw [shapeCast_self, shapeCast_self]

/-- Column `c` of the [1024, 3] block, cut out as a [1024, 1] column and stretched over the 512 columns, reads at
    `(p, q)` the block's entry `(p, c)`. -/
theorem weight_column_apply (w : Vec Ideal S1024x3 .f32) (o : ℕ) (c : Fin 3) (hc : c.val = o)
    (hs : S1024x3.Slices ![0, o] S1024x1) (p : Fin 1024) (q : Fin 512) :
    broadcastTo S1024x512
        (extractStridedSlice S1024x1 ![0, o] (shapeCast S1024x3 w shapeCasts_S1024x3_S1024x3) hs)
        broadcasts_S1024x1_S1024x512 (ix2 p q) = w (ix2 p c) := by
  refine (broadcastTo_a1_ab_apply _ broadcasts_S1024x1_S1024x512 p q).trans ?_
  rw [shapeCast_self]
  exact slice2_axis1_apply o w hs p (0 : Fin 1) c (by rw [hc]; rfl)

/-- The stored block at `(p, q)`. -/
theorem pay_out (v0 : Vec Ideal S1024x1024 .bf16) (v2 : Vec Ideal S512x1024 .bf16) (v4 : Vec Ideal S1024x1024 .bf16)
    (v6 : Vec Ideal S512x1024 .bf16) (v12 v13 : Vec Ideal S1024x512 .f32) (v14 : Vec Ideal S1024x3 .f32)
    (p : Fin 1024) (q : Fin 512) :
    k2_pay1 (F := Ideal) v0 v2 v4 v6 v12 v13 v14 (ix2 p q)
      = Cert.Spec.entry (fun d => v0 (ix2 p d)) (fun d => v2 (ix2 q d)) (fun d => v4 (ix2 p d)) (fun d => v6 (ix2 q d))
          (v12 (ix2 p q)) (v13 (ix2 p q)) (v14 (ix2 p (0 : Fin 3))) (v14 (ix2 p (1 : Fin 3))) (v14 (ix2 p (2 : Fin 3))) := by
  have h8 := matmul_cast_rows_rows_apply v0 v2 p q
  have h9 := matmul_cast_rows_rows_apply v4 v6 p q
  have c0 := weight_column_apply v14 0 (0 : Fin 3) rfl slices_S1024x3_o0_0_S1024x1 p q
  have c1 := weight_column_apply v14 1 (1 : Fin 3) rfl slices_S1024x3_o0_1_S1024x1 p q
  have c2 := weight_column_apply v14 2 (2 : Fin 3) rfl slices_S1024x3_o0_2_S1024x1 p q
  unfold k2_pay1 Cert.Spec.entry
  exact congrArg₂ (· + ·)
    (congrArg₂ (· - ·)
      (congrArg₂ (· * ·) (congrArg (v12 (ix2 p q) * ·) h8) c0)
      (congrArg (v13 (ix2 p q) * ·) c1))
    (congrArg₂ (· * ·) (congrArg (· * Cert.Spec.scaleLit) h9) c2)

end Cert.KernelIdeal.Pay

end
-- ==== Proof.ValMain.lean ====
/-
  From the third region's tiles to the whole output array. Grid point t = 8 i + j leaves in tile (i, j) of the
  output, a 1024 x 512 tile, the body's result on the blocks it was given: tile (i, j) of the two adjacency
  matrices, row blocks i (1024 rows) and j (512 rows) of the normalised matrix and of the neigh matrix, and row
  block i of the persona weights. Entry (p, q) of that tile is the output entry (1024 i + p, 512 j + q) of the
  one function of the whole arrays, and the 32 tiles cover the array.
-/
import proofs.«104118_j43800076484745_2_alg».proof.Proof.IMain
import proofs.«104118_j43800076484745_2_alg».proof.Proof.PayMain
import proofs.«104118_j43800076484745_2_alg».proof.Proof.Spec
import Idealize.ShloMosaic.Lib.Pipeline.Value
import Idealize.ShloMosaic.Lib.ValueIdx

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr Cert.KernelIdeal.Pay

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the tile's row index is the row-block index of windows 0, 1, 2, 4, 6, its column index
    the column index of windows 0, 1 and the row-block index of windows 3, 5; the row-block windows sit at column 0. -/
theorem idx_facts2 : ∀ t : Fin cfg2.N,
    win2_0.index t (0 : Fin 2) = win2_7.index t (0 : Fin 2) ∧ win2_0.index t (1 : Fin 2) = win2_7.index t (1 : Fin 2)
    ∧ win2_1.index t (0 : Fin 2) = win2_7.index t (0 : Fin 2) ∧ win2_1.index t (1 : Fin 2) = win2_7.index t (1 : Fin 2)
    ∧ win2_2.index t (0 : Fin 2) = win2_7.index t (0 : Fin 2) ∧ win2_2.index t (1 : Fin 2) = 0
    ∧ win2_3.index t (0 : Fin 2) = win2_7.index t (1 : Fin 2) ∧ win2_3.index t (1 : Fin 2) = 0
    ∧ win2_4.index t (0 : Fin 2) = win2_7.index t (0 : Fin 2) ∧ win2_4.index t (1 : Fin 2) = 0
    ∧ win2_5.index t (0 : Fin 2) = win2_7.index t (1 : Fin 2) ∧ win2_5.index t (1 : Fin 2) = 0
    ∧ win2_6.index t (0 : Fin 2) = win2_7.index t (0 : Fin 2) ∧ win2_6.index t (1 : Fin 2) = 0
    ∧ win2_7.index t (0 : Fin 2) ≤ 3 ∧ win2_7.index t (1 : Fin 2) ≤ 7 :=
  (by decide +kernel : ∀ t : Fin grid2.N, _)

/-- Every tile of the 4 x 8 arrangement is some point's. -/
theorem idx_onto2 : ∀ (q0 : Fin 4) (q1 : Fin 8), ∃ t : Fin cfg2.N, win2_7.index t = ![q0.val, q1.val] :=
  (by decide +kernel : ∀ (q0 : Fin 4) (q1 : Fin 8), ∃ t : Fin grid2.N, win2_7.index t = ![q0.val, q1.val])

/-- Window 0's block at point `t`, at `(p, q)`: its array at the block's offset plus `(p, q)`. -/
theorem iblk2_0_apply (c : Dev nD) (t : Fin cfg2.N) (p : Fin 1024) (q : Fin 512) (P : Fin 4096) (Q : Fin 4096)
    (hP : P.val = win2_0.index t (0 : Fin 2) * 1024 + p.val) (hQ : Q.val = win2_0.index t (1 : Fin 2) * 512 + q.val) :
    (iblk2 V c 0 t : Vec Ideal S1024x512 .f32) (ix2 p q) = (V c main_arg2 : S4096x4096.Idx → EReal) (ix2 P Q) := by
  unfold iblk2
  rw [View.read_apply]
  show (V c main_arg2 : S4096x4096.Idx → EReal) _ = _
  congr 1
  funext a
  apply Fin.ext
  match a with
  | ⟨0, _⟩ => show win2_0.index t (0 : Fin 2) * 1024 + 1 * p.val = P.val; omega
  | ⟨1, _⟩ => show win2_0.index t (1 : Fin 2) * 512 + 1 * q.val = Q.val; omega

/-- Window 1's block at point `t`, at `(p, q)`: its array at the block's offset plus `(p, q)`. -/
theorem iblk2_1_apply (c : Dev nD) (t : Fin cfg2.N) (p : Fin 1024) (q : Fin 512) (P : Fin 4096) (Q : Fin 4096)
    (hP : P.val = win2_1.index t (0 : Fin 2) * 1024 + p.val) (hQ : Q.val = win2_1.index t (1 : Fin 2) * 512 + q.val) :
    (iblk2 V c 1 t : Vec Ideal S1024x512 .f32) (ix2 p q) = (V c main_arg3 : S4096x4096.Idx → EReal) (ix2 P Q) := by
  unfold iblk2
  rw [View.read_apply]
  show (V c main_arg3 : S4096x4096.Idx → EReal) _ = _
  congr 1
  funext a
  apply Fin.ext
  match a with
  | ⟨0, _⟩ => show win2_1.index t (0 : Fin 2) * 1024 + 1 * p.val = P.val; omega
  | ⟨1, _⟩ => show win2_1.index t (1 : Fin 2) * 512 + 1 * q.val = Q.val; omega

/-- Window 2's block at point `t`, at `(p, q)`: its array at the block's offset plus `(p, q)`. -/
theorem iblk2_2_apply (c : Dev nD) (t : Fin cfg2.N) (p : Fin 1024) (q : Fin 1024) (P : Fin 4096) (Q : Fin 1024)
    (hP : P.val = win2_2.index t (0 : Fin 2) * 1024 + p.val) (hQ : Q.val = win2_2.index t (1 : Fin 2) * 1024 + q.val) :
    (iblk2 V c 2 t : Vec Ideal S1024x1024 .bf16) (ix2 p q) = (V c main_v0_0 : S4096x1024.Idx → EReal) (ix2 P Q) := by
  unfold iblk2
  rw [View.read_apply]
  show (V c main_v0_0 : S4096x1024.Idx → EReal) _ = _
  congr 1
  funext a
  apply Fin.ext
  match a with
  | ⟨0, _⟩ => show win2_2.index t (0 : Fin 2) * 1024 + 1 * p.val = P.val; omega
  | ⟨1, _⟩ => show win2_2.index t (1 : Fin 2) * 1024 + 1 * q.val = Q.val; omega

/-- Window 3's block at point `t`, at `(p, q)`: its array at the block's offset plus `(p, q)`. -/
theorem iblk2_3_apply (c : Dev nD) (t : Fin cfg2.N) (p : Fin 512) (q : Fin 1024) (P : Fin 4096) (Q : Fin 1024)
    (hP : P.val = win2_3.index t (0 : Fin 2) * 512 + p.val) (hQ : Q.val = win2_3.index t (1 : Fin 2) * 1024 + q.val) :
    (iblk2 V c 3 t : Vec Ideal S512x1024 .bf16) (ix2 p q) = (V c main_v0_0 : S4096x1024.Idx → EReal) (ix2 P Q) := by
  unfold iblk2
  rw [View.read_apply]
  show (V c main_v0_0 : S4096x1024.Idx → EReal) _ = _
  congr 1
  funext a
  apply Fin.ext
  match a with
  | ⟨0, _⟩ => show win2_3.index t (0 : Fin 2) * 512 + 1 * p.val = P.val; omega
  | ⟨1, _⟩ => show win2_3.index t (1 : Fin 2) * 1024 + 1 * q.val = Q.val; omega

/-- Window 4's block at point `t`, at `(p, q)`: its array at the block's offset plus `(p, q)`. -/
theorem iblk2_4_apply (c : Dev nD) (t : Fin cfg2.N) (p : Fin 1024) (q : Fin 1024) (P : Fin 4096) (Q : Fin 1024)
    (hP : P.val = win2_4.index t (0 : Fin 2) * 1024 + p.val) (hQ : Q.val = win2_4.index t (1 : Fin 2) * 1024 + q.val) :
    (iblk2 V c 4 t : Vec Ideal S1024x1024 .bf16) (ix2 p q) = (V c main_v1 : S4096x1024.Idx → EReal) (ix2 P Q) := by
  unfold iblk2
  rw [View.read_apply]
  show (V c main_v1 : S4096x1024.Idx → EReal) _ = _
  congr 1
  funext a
  apply Fin.ext
  match a with
  | ⟨0, _⟩ => show win2_4.index t (0 : Fin 2) * 1024 + 1 * p.val = P.val; omega
  | ⟨1, _⟩ => show win2_4.index t (1 : Fin 2) * 1024 + 1 * q.val = Q.val; omega

/-- Window 5's block at point `t`, at `(p, q)`: its array at the block's offset plus `(p, q)`. -/
theorem iblk2_5_apply (c : Dev nD) (t : Fin cfg2.N) (p : Fin 512) (q : Fin 1024) (P : Fin 4096) (Q : Fin 1024)
    (hP : P.val = win2_5.index t (0 : Fin 2) * 512 + p.val) (hQ : Q.val = win2_5.index t (1 : Fin 2) * 1024 + q.val) :
    (iblk2 V c 5 t : Vec Ideal S512x1024 .bf16) (ix2 p q) = (V c main_v1 : S4096x1024.Idx → EReal) (ix2 P Q) := by
  unfold iblk2
  rw [View.read_apply]
  show (V c main_v1 : S4096x1024.Idx → EReal) _ = _
  congr 1
  funext a
  apply Fin.ext
  match a with
  | ⟨0, _⟩ => show win2_5.index t (0 : Fin 2) * 512 + 1 * p.val = P.val; omega
  | ⟨1, _⟩ => show win2_5.index t (1 : Fin 2) * 1024 + 1 * q.val = Q.val; omega

/-- Window 6's block at point `t`, at `(p, q)`: its array at the block's offset plus `(p, q)`. -/
theorem iblk2_6_apply (c : Dev nD) (t : Fin cfg2.N) (p : Fin 1024) (q : Fin 3) (P : Fin 4096) (Q : Fin 3)
    (hP : P.val = win2_6.index t (0 : Fin 2) * 1024 + p.val) (hQ : Q.val = win2_6.index t (1 : Fin 2) * 3 + q.val) :
    (iblk2 V c 6 t : Vec Ideal S1024x3 .f32) (ix2 p q) = (V c main_v6 : S4096x3.Idx → EReal) (ix2 P Q) := by
  unfold iblk2
  rw [View.read_apply]
  show (V c main_v6 : S4096x3.Idx → EReal) _ = _
  congr 1
  funext a
  apply Fin.ext
  match a with
  | ⟨0, _⟩ => show win2_6.index t (0 : Fin 2) * 1024 + 1 * p.val = P.val; omega
  | ⟨1, _⟩ => show win2_6.index t (1 : Fin 2) * 3 + 1 * q.val = Q.val; omega

/-- The output array as one function of the whole arrays the region finds, entry by entry. -/
def G2 (c : Dev nD) : S4096x4096.Idx → EReal := fun idx =>
  Cert.Spec.entry (fun d => (V c main_v0_0 : S4096x1024.Idx → EReal) (ix2 (idx 0) d))
    (fun d => (V c main_v0_0 : S4096x1024.Idx → EReal) (ix2 (idx 1) d))
    (fun d => (V c main_v1 : S4096x1024.Idx → EReal) (ix2 (idx 0) d))
    (fun d => (V c main_v1 : S4096x1024.Idx → EReal) (ix2 (idx 1) d))
    ((V c main_arg2 : S4096x4096.Idx → EReal) idx) ((V c main_arg3 : S4096x4096.Idx → EReal) idx)
    ((V c main_v6 : S4096x3.Idx → EReal) (ix2 (idx 0) 0)) ((V c main_v6 : S4096x3.Idx → EReal) (ix2 (idx 0) 1))
    ((V c main_v6 : S4096x3.Idx → EReal) (ix2 (idx 0) 2))

/-- What point `t` writes back is tile `t` of that function. -/
theorem flushed2_7_eq (c : Dev nD) (t : Fin cfg2.N) :
    (dat2 (F := Ideal) V c).flushed 7 t = ((cfg2.win 7).blk t).view.read (Elt Ideal) (G2 V c) := by
  show (cfg2.win 7).cut (grid2.coords t) ((dat2 (F := Ideal) V c).after 7 t) = _
  rw [after2_7]
  unfold out2_7
  rw [View.canon_unit_zero hz2]
  simp only [View.ld_unit_zero (S := S1024x512) hz2, View.ld_unit_zero (S := S1024x1024) hz2,
    View.ld_unit_zero (S := S512x1024) hz2, View.ld_unit_zero (S := S1024x3) hz2]
  obtain ⟨e00, e01, e10, e11, e20, e21, e30, e31, e40, e41, e50, e51, e60, e61, b0, b1⟩ := idx_facts2 t
  funext j
  obtain ⟨p, q, rfl⟩ : ∃ (p : Fin 1024) (q : Fin 512), j = ix2 p q := ⟨j 0, j 1, eq_ix2 j⟩
  have hp := p.isLt
  have hq := q.isLt
  -- the entry of the whole array that the tile's entry (p, q) is
  obtain ⟨P, hP⟩ : ∃ P : Fin 4096, P.val = win2_7.index t (0 : Fin 2) * 1024 + p.val := ⟨⟨_, by omega⟩, rfl⟩
  obtain ⟨Q, hQ⟩ : ∃ Q : Fin 4096, Q.val = win2_7.index t (1 : Fin 2) * 512 + q.val := ⟨⟨_, by omega⟩, rfl⟩
  have hR : View.read (Elt Ideal) ((View.whole main_v7).slice ((win2 7).rect t)) (G2 V c) (ix2 p q) = G2 V c (ix2 P Q) := by
    rw [View.read_apply]
    refine congrArg (G2 V c) (funext fun a => Fin.ext ?_)
    match a with
    | ⟨0, _⟩ => show win2_7.index t (0 : Fin 2) * 1024 + 1 * p.val = P.val; omega
    | ⟨1, _⟩ => show win2_7.index t (1 : Fin 2) * 512 + 1 * q.val = Q.val; omega
  show k2_pay1 (F := Ideal) (iblk2 V c 2 t) (iblk2 V c 3 t) (iblk2 V c 4 t) (iblk2 V c 5 t) (iblk2 V c 0 t) (iblk2 V c 1 t)
      (iblk2 V c 6 t) (ix2 p q) = _
  rw [hR]
  refine (pay_out (iblk2 V c 2 t) (iblk2 V c 3 t) (iblk2 V c 4 t) (iblk2 V c 5 t) (iblk2 V c 0 t) (iblk2 V c 1 t)
    (iblk2 V c 6 t) p q).trans ?_
  -- each block read where the tile's rectangle says
  have h0 := iblk2_0_apply V c t p q P Q (by omega) (by omega)
  have h1 := iblk2_1_apply V c t p q P Q (by omega) (by omega)
  have h2 : (fun d => (iblk2 V c 2 t : Vec Ideal S1024x1024 .bf16) (ix2 p d))
      = fun d => (V c main_v0_0 : S4096x1024.Idx → EReal) (ix2 P d) :=
    funext fun d => iblk2_2_apply V c t p d P d (by omega) (by omega)
  have h3 : (fun d => (iblk2 V c 3 t : Vec Ideal S512x1024 .bf16) (ix2 q d))
      = fun d => (V c main_v0_0 : S4096x1024.Idx → EReal) (ix2 Q d) :=
    funext fun d => iblk2_3_apply V c t q d Q d (by omega) (by omega)
  have h4 : (fun d => (iblk2 V c 4 t : Vec Ideal S1024x1024 .bf16) (ix2 p d))
      = fun d => (V c main_v1 : S4096x1024.Idx → EReal) (ix2 P d) :=
    funext fun d => iblk2_4_apply V c t p d P d (by omega) (by omega)
  have h5 : (fun d => (iblk2 V c 5 t : Vec Ideal S512x1024 .bf16) (ix2 q d))
      = fun d => (V c main_v1 : S4096x1024.Idx → EReal) (ix2 Q d) :=
    funext fun d => iblk2_5_apply V c t q d Q d (by omega) (by omega)
  have h60 := iblk2_6_apply V c t p (0 : Fin 3) P (0 : Fin 3) (by omega) (by rw [e61]; rfl)
  have h61 := iblk2_6_apply V c t p (1 : Fin 3) P (1 : Fin 3) (by omega) (by rw [e61]; rfl)
  have h62 := iblk2_6_apply V c t p (2 : Fin 3) P (2 : Fin 3) (by omega) (by rw [e61]; rfl)
  rw [h0, h1, h2, h3, h4, h5, h60, h61, h62]
  rfl

/-- An entry of the array is in point `t`'s tile iff each coordinate is in the tile's range on its axis. -/
theorem mem_blk2_7 (t : Fin cfg2.N) (i : S4096x4096.Idx) :
    i ∈ ((cfg2.win 7).blk t).view.set ↔ ∀ a : Fin 2, win2_7.index t a * S1024x512.size a ≤ (i a).val
      ∧ (i a).val < win2_7.index t a * S1024x512.size a + S1024x512.size a := by
  show i ∈ ((View.whole main_v7).slice (win2_7.rect t)).set ↔ _
  rw [View.set_slice_whole, Rect.mem_set_unit]
  exact Iff.rfl

/-- The tiles cover the array: entry `(r, s)` is in the tile of the point with row index `r / 1024` and column
    index `s / 512`. -/
theorem cover2_7 (i : S4096x4096.Idx) :
    ∃ t : Fin cfg2.N, (cfg2.win 7).flush t = true ∧ i ∈ ((cfg2.win 7).blk t).view.set := by
  have hi0 : (i 0).val < 4096 := (i 0).isLt
  have hi1 : (i 1).val < 4096 := (i 1).isLt
  obtain ⟨t, ht⟩ := idx_onto2 ⟨(i 0).val / 1024, by omega⟩ ⟨(i 1).val / 512, by omega⟩
  have q0 : win2_7.index t (0 : Fin 2) = (i 0).val / 1024 := congrFun ht 0
  have q1 : win2_7.index t (1 : Fin 2) = (i 1).val / 512 := congrFun ht 1
  refine ⟨t, flush2_7 t, ?_⟩
  rw [mem_blk2_7]
  intro a
  match a with
  | ⟨0, _⟩ =>
    show win2_7.index t (0 : Fin 2) * 1024 ≤ (i 0).val ∧ (i 0).val < win2_7.index t (0 : Fin 2) * 1024 + 1024
    omega
  | ⟨1, _⟩ =>
    show win2_7.index t (1 : Fin 2) * 512 ≤ (i 1).val ∧ (i 1).val < win2_7.index t (1 : Fin 2) * 512 + 512
    omega

/-- The output array after the region is that function of the arrays the region finds. -/
theorem final2_7_G (c : Dev nD) : (dat2 (F := Ideal) V c).arrAt 7 cfg2.N = G2 V c :=
  (dat2 (F := Ideal) V c).arrAt_eq_of_cover 7 (G2 V c) (fun t _ => flushed2_7_eq V c t) cover2_7

/-- The same with the function written out. -/
theorem final2_7 (c : Dev nD) :
    (dat2 (F := Ideal) V c).arrAt 7 cfg2.N = fun idx =>
      Cert.Spec.entry (fun d => (V c main_v0_0 : S4096x1024.Idx → EReal) (ix2 (idx 0) d))
        (fun d => (V c main_v0_0 : S4096x1024.Idx → EReal) (ix2 (idx 1) d))
        (fun d => (V c main_v1 : S4096x1024.Idx → EReal) (ix2 (idx 0) d))
        (fun d => (V c main_v1 : S4096x1024.Idx → EReal) (ix2 (idx 1) d))
        ((V c main_arg2 : S4096x4096.Idx → EReal) idx) ((V c main_arg3 : S4096x4096.Idx → EReal) idx)
        ((V c main_v6 : S4096x3.Idx → EReal) (ix2 (idx 0) 0)) ((V c main_v6 : S4096x3.Idx → EReal) (ix2 (idx 0) 1))
        ((V c main_v6 : S4096x3.Idx → EReal) (ix2 (idx 0) 2)) :=
  final2_7_G V c

end Cert.KernelIdeal.Val

end
-- ==== Proof.Persona.lean ====
/-
  The host operations before the third kernel read at an index: three weight vectors of length 8, each stretched
  to a column [8, 1], the three columns set side by side into [8, 3], and the [4096, 8] persona matrix multiplied
  by that [8, 3] matrix. At `(i, c)` the product is the sum over `p` of the persona matrix at `(i, p)` times entry
  `p` of weight vector `c`: the persona weight of row `i` under that vector.
-/
import proofs.«104118_j43800076484745_2_alg».proof.Proof.Gen.KernelIdeal.Skeleton
import proofs.«104118_j43800076484745_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! The operand indices of the product at an output index and a contraction index, coordinate by coordinate. -/

theorem personaDot_lhs0 (j : S4096x3.Idx) (c : dot_S4096x8_S8x3_S4096x3_1_0_0_1_n_n.contr.Idx) : (dot_S4096x8_S8x3_S4096x3_1_0_0_1_n_n.lhsIdx j c 0).val = (j 0).val := by
  unfold DotDims.lhsIdx
  rw [dif_neg (show ¬(0 : Fin S4096x8.rank) ∈ dot_S4096x8_S8x3_S4096x3_1_0_0_1_n_n.lhsBatch by decide),
    dif_pos (show (0 : Fin S4096x8.rank) ∈ dot_S4096x8_S8x3_S4096x3_1_0_0_1_n_n.lhsNonContracting by decide)]
  rfl
theorem personaDot_lhs1 (j : S4096x3.Idx) (c : dot_S4096x8_S8x3_S4096x3_1_0_0_1_n_n.contr.Idx) : (dot_S4096x8_S8x3_S4096x3_1_0_0_1_n_n.lhsIdx j c 1).val = (c ⟨0, by decide⟩).val :=
  dot_S4096x8_S8x3_S4096x3_1_0_0_1_n_n.lhsIdx_val_of_single rfl j c
theorem personaDot_rhs0 (j : S4096x3.Idx) (c : dot_S4096x8_S8x3_S4096x3_1_0_0_1_n_n.contr.Idx) : (dot_S4096x8_S8x3_S4096x3_1_0_0_1_n_n.rhsIdx j c 0).val = (c ⟨0, by decide⟩).val :=
  dot_S4096x8_S8x3_S4096x3_1_0_0_1_n_n.rhsIdx_val_of_single rfl j c
theorem personaDot_rhs1 (j : S4096x3.Idx) (c : dot_S4096x8_S8x3_S4096x3_1_0_0_1_n_n.contr.Idx) : (dot_S4096x8_S8x3_S4096x3_1_0_0_1_n_n.rhsIdx j c 1).val = (j 1).val := by
  unfold DotDims.rhsIdx
  rw [dif_neg (show ¬(1 : Fin S8x3.rank) ∈ dot_S4096x8_S8x3_S4096x3_1_0_0_1_n_n.rhsBatch by decide),
    dif_pos (show (1 : Fin S8x3.rank) ∈ dot_S4096x8_S8x3_S4096x3_1_0_0_1_n_n.rhsNonContracting by decide)]
  rfl

/-- The host's product that contracts the left operand's second axis with the right operand's first, at `(i, c)`,
    as a sum over the inner coordinate. -/
theorem dotGeneral_rows_cols_apply (lhs : FVec Ideal S4096x8 .f32) (rhs : FVec Ideal S8x3 .f32)
    (i : Fin 4096) (c : Fin 3) :
    Host.dotGeneral (F := Ideal) dot_S4096x8_S8x3_S4096x3_1_0_0_1_n_n none lhs rhs (ix2 i c)
      = ∑ k : Fin 8, lhs (ix2 i k) * rhs (ix2 k c) := by
  simp only [Host.dotGeneral]
  rw [Ideal.dotGeneral_apply, ← Equiv.sum_comp (contrEquiv1 dot_S4096x8_S8x3_S4096x3_1_0_0_1_n_n 8 rfl rfl).symm]
  refine Finset.sum_congr rfl fun k _ => ?_
  have hk := contrEquiv1_symm_val dot_S4096x8_S8x3_S4096x3_1_0_0_1_n_n 8 rfl rfl k
  have el : dot_S4096x8_S8x3_S4096x3_1_0_0_1_n_n.lhsIdx (ix2 i c) ((contrEquiv1 dot_S4096x8_S8x3_S4096x3_1_0_0_1_n_n 8 rfl rfl).symm k) = ix2 i k :=
    funext fun a => Fin.ext (by
      match a with
      | ⟨0, _⟩ => exact personaDot_lhs0 _ _
      | ⟨1, _⟩ => exact (personaDot_lhs1 _ _).trans hk)
  have er : dot_S4096x8_S8x3_S4096x3_1_0_0_1_n_n.rhsIdx (ix2 i c) ((contrEquiv1 dot_S4096x8_S8x3_S4096x3_1_0_0_1_n_n 8 rfl rfl).symm k) = ix2 k c :=
    funext fun a => Fin.ext (by
      match a with
      | ⟨0, _⟩ => exact (personaDot_rhs0 _ _).trans hk
      | ⟨1, _⟩ => exact personaDot_rhs1 _ _)
  rw [el, er]

/-- A vector of length 8 stretched to a column [8, 1] reads, at `(k, u)`, its entry `k`. -/
theorem vector_column_apply (w : FVec Ideal S8 .f32) (k : Fin 8) (u : Fin 1) :
    broadcastInDim S8x1 ![0] bcast_S8_S8x1_0 w (ix2 k u) = w (ix1 k) :=
  broadcastInDim_apply ![0] bcast_S8_S8x1_0 w (ix2 k u) (ix1 k) (fun ax => by
    match ax with
    | ⟨0, _⟩ => exact (if_neg (show ¬((8 : ℕ) = 1) by decide)).symm)

/-! Three columns [8, 1] set side by side: column `c` of the result is piece `c`. -/

theorem weights_concat_apply0 (A B G : FVec Ideal S8x1 .f32) (k : Fin 8) :
    (concatenate S8x3 1 [⟨S8x1, A⟩, ⟨S8x1, B⟩, ⟨S8x1, G⟩] concatenates_S8x1_S8x1_S8x1_S8x3_d1) (ix2 k (0 : Fin 3)) = A (ix2 k (0 : Fin 1)) :=
  concatenate_apply_piece (1 : Fin S8x3.rank) [⟨S8x1, A⟩, ⟨S8x1, B⟩, ⟨S8x1, G⟩] concatenates_S8x1_S8x1_S8x1_S8x3_d1
    (ix2 k (0 : Fin 3)) 0 (show (0 : ℕ) < 3 by decide) S8x1 A rfl rfl 0 rfl (ix2 k (0 : Fin 1))
    (fun b hb => by
      match b with
      | ⟨0, _⟩ => rfl
      | ⟨1, _⟩ => exact absurd rfl hb)
    rfl

theorem weights_concat_apply1 (A B G : FVec Ideal S8x1 .f32) (k : Fin 8) :
    (concatenate S8x3 1 [⟨S8x1, A⟩, ⟨S8x1, B⟩, ⟨S8x1, G⟩] concatenates_S8x1_S8x1_S8x1_S8x3_d1) (ix2 k (1 : Fin 3)) = B (ix2 k (0 : Fin 1)) :=
  concatenate_apply_piece (1 : Fin S8x3.rank) [⟨S8x1, A⟩, ⟨S8x1, B⟩, ⟨S8x1, G⟩] concatenates_S8x1_S8x1_S8x1_S8x3_d1
    (ix2 k (1 : Fin 3)) 1 (show (1 : ℕ) < 3 by decide) S8x1 B rfl rfl 1 rfl (ix2 k (0 : Fin 1))
    (fun b hb => by
      match b with
      | ⟨0, _⟩ => rfl
      | ⟨1, _⟩ => exact absurd rfl hb)
    rfl

theorem weights_concat_apply2 (A B G : FVec Ideal S8x1 .f32) (k : Fin 8) :
    (concatenate S8x3 1 [⟨S8x1, A⟩, ⟨S8x1, B⟩, ⟨S8x1, G⟩] concatenates_S8x1_S8x1_S8x1_S8x3_d1) (ix2 k (2 : Fin 3)) = G (ix2 k (0 : Fin 1)) :=
  concatenate_apply_piece (1 : Fin S8x3.rank) [⟨S8x1, A⟩, ⟨S8x1, B⟩, ⟨S8x1, G⟩] concatenates_S8x1_S8x1_S8x1_S8x3_d1
    (ix2 k (2 : Fin 3)) 2 (show (2 : ℕ) < 3 by decide) S8x1 G rfl rfl 2 rfl (ix2 k (0 : Fin 1))
    (fun b hb => by
      match b with
      | ⟨0, _⟩ => rfl
      | ⟨1, _⟩ => exact absurd rfl hb)
    rfl

/-- Column 0 of the host's product: the persona weight of row `i` under the first weight vector. -/
theorem persona_apply0 (P : FVec Ideal S4096x8 .f32) (a b g : FVec Ideal S8 .f32) (i : Fin 4096) :
    (Host.dotGeneral (F := Ideal) dot_S4096x8_S8x3_S4096x3_1_0_0_1_n_n none P
        (concatenate S8x3 1 [⟨S8x1, broadcastInDim S8x1 ![0] bcast_S8_S8x1_0 a⟩, ⟨S8x1, broadcastInDim S8x1 ![0] bcast_S8_S8x1_0 b⟩, ⟨S8x1, broadcastInDim S8x1 ![0] bcast_S8_S8x1_0 g⟩] concatenates_S8x1_S8x1_S8x1_S8x3_d1)) (ix2 i (0 : Fin 3))
      = Cert.Spec.weight P a i := by
  refine (dotGeneral_rows_cols_apply P _ i (0 : Fin 3)).trans ?_
  unfold Cert.Spec.weight
  refine Finset.sum_congr rfl fun k _ => congrArg (P (ix2 i k) * ·) ?_
  exact (weights_concat_apply0 _ _ _ k).trans (vector_column_apply a k (0 : Fin 1))

/-- Column 1 of the host's product: the persona weight of row `i` under the second weight vector. -/
theorem persona_apply1 (P : FVec Ideal S4096x8 .f32) (a b g : FVec Ideal S8 .f32) (i : Fin 4096) :
    (Host.dotGeneral (F := Ideal) dot_S4096x8_S8x3_S4096x3_1_0_0_1_n_n none P
        (concatenate S8x3 1 [⟨S8x1, broadcastInDim S8x1 ![0] bcast_S8_S8x1_0 a⟩, ⟨S8x1, broadcastInDim S8x1 ![0] bcast_S8_S8x1_0 b⟩, ⟨S8x1, broadcastInDim S8x1 ![0] bcast_S8_S8x1_0 g⟩] concatenates_S8x1_S8x1_S8x1_S8x3_d1)) (ix2 i (1 : Fin 3))
      = Cert.Spec.weight P b i := by
  refine (dotGeneral_rows_cols_apply P _ i (1 : Fin 3)).trans ?_
  unfold Cert.Spec.weight
  refine Finset.sum_congr rfl fun k _ => congrArg (P (ix2 i k) * ·) ?_
  exact (weights_concat_apply1 _ _ _ k).trans (vector_column_apply b k (0 : Fin 1))

/-- Column 2 of the host's product: the persona weight of row `i` under the third weight vector. -/
theorem persona_apply2 (P : FVec Ideal S4096x8 .f32) (a b g : FVec Ideal S8 .f32) (i : Fin 4096) :
    (Host.dotGeneral (F := Ideal) dot_S4096x8_S8x3_S4096x3_1_0_0_1_n_n none P
        (concatenate S8x3 1 [⟨S8x1, broadcastInDim S8x1 ![0] bcast_S8_S8x1_0 a⟩, ⟨S8x1, broadcastInDim S8x1 ![0] bcast_S8_S8x1_0 b⟩, ⟨S8x1, broadcastInDim S8x1 ![0] bcast_S8_S8x1_0 g⟩] concatenates_S8x1_S8x1_S8x1_S8x3_d1)) (ix2 i (2 : Fin 3))
      = Cert.Spec.weight P g i := by
  refine (dotGeneral_rows_cols_apply P _ i (2 : Fin 3)).trans ?_
  unfold Cert.Spec.weight
  refine Finset.sum_congr rfl fun k _ => congrArg (P (ix2 i k) * ·) ?_
  exact (weights_concat_apply2 _ _ _ k).trans (vector_column_apply g k (0 : Fin 1))

end Cert.KernelIdeal.Pay

end
-- ==== Proof.BridgeHost.lean ====
/-
  The host operations between the second and the third region, read at an index: the [4096, 3] array the third
  region reads its persona weights from is the persona matrix times the three weight vectors set side by side,
  so its entry (i, 0), (i, 1), (i, 2) is the persona weight of row i under the first, second, third vector.
-/
import proofs.«104118_j43800076484745_2_alg».proof.Proof.IRun
import proofs.«104118_j43800076484745_2_alg».proof.Proof.Persona
import proofs.«104118_j43800076484745_2_alg».proof.Proof.Spec
import Idealize.ShloMosaic.Lib.StableHlo.Run
import Idealize.ShloMosaic.Lib.ValueIdx

noncomputable section

open scoped BigOperators

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- A three-operand operation's result with each operand's contents at its own reference, so that the operands'
    own results can be read on. -/
theorem nary3_result {τ' : Topo} {sig' : RefSig} {Val : EltTy → Type} {x a b y : Ref sig' .tc}
    (f : ((k : Fin 3) → ((![x, a, b] : Fin 3 → Ref sig' .tc) k).ty.Contents Val) → y.ty.Contents Val) (hxs hy)
    (F : Valuation τ' sig' Val) :
    (nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The persona matrix and the three weight vectors reach the host operations as launched: no region before them
    writes them. -/
theorem W2_main_arg4 (c : Dev nD) : W2 (F := Ideal) m ρ c (Proc.devRef .tc main_arg4) = m ((c : Thread nD τ).loc main_arg4) :=
  (W2_of_ne m ρ c main_arg4 (by decide)).trans ((W1_of_ne m ρ c main_arg4 (by decide)).trans rfl)
theorem W2_main_arg5 (c : Dev nD) : W2 (F := Ideal) m ρ c (Proc.devRef .tc main_arg5) = m ((c : Thread nD τ).loc main_arg5) :=
  (W2_of_ne m ρ c main_arg5 (by decide)).trans ((W1_of_ne m ρ c main_arg5 (by decide)).trans rfl)
theorem W2_main_arg6 (c : Dev nD) : W2 (F := Ideal) m ρ c (Proc.devRef .tc main_arg6) = m ((c : Thread nD τ).loc main_arg6) :=
  (W2_of_ne m ρ c main_arg6 (by decide)).trans ((W1_of_ne m ρ c main_arg6 (by decide)).trans rfl)
theorem W2_main_arg7 (c : Dev nD) : W2 (F := Ideal) m ρ c (Proc.devRef .tc main_arg7) = m ((c : Thread nD τ).loc main_arg7) :=
  (W2_of_ne m ρ c main_arg7 (by decide)).trans ((W1_of_ne m ρ c main_arg7 (by decide)).trans rfl)

/-- The weights array at the third region's entry is the host operations' term of the launched persona matrix
    and weight vectors. -/
theorem B3_v6_eq (c : Dev nD) (P : FVec Ideal S4096x8 .f32) (a b g : FVec Ideal S8 .f32)
    (hP : (m ((c : Thread nD τ).loc main_arg4) : S4096x8.Idx → EReal) = P)
    (ha : (m ((c : Thread nD τ).loc main_arg5) : S8.Idx → EReal) = a)
    (hb : (m ((c : Thread nD τ).loc main_arg6) : S8.Idx → EReal) = b)
    (hg : (m ((c : Thread nD τ).loc main_arg7) : S8.Idx → EReal) = g) :
    (B3 (F := Ideal) m ρ c main_v6 : S4096x3.Idx → EReal)
      = Host.dotGeneral (F := Ideal) dot_S4096x8_S8x3_S4096x3_1_0_0_1_n_n none P
          (concatenate S8x3 1
            [⟨S8x1, broadcastInDim S8x1 ![0] bcast_S8_S8x1_0 a⟩,
             ⟨S8x1, broadcastInDim S8x1 ![0] bcast_S8_S8x1_0 b⟩,
             ⟨S8x1, broadcastInDim S8x1 ![0] bcast_S8_S8x1_0 g⟩]
            concatenates_S8x1_S8x1_S8x1_S8x3_d1) := by
  subst hP ha hb hg
  show StableHlo.after hostOps2 (W2 (F := Ideal) m ρ c) (Proc.devRef .tc main_v6) = _
  simp only [after_cons, after_nil]
  repeat (first
    | rw [unary_result] | rw [binary_result] | rw [nary3_result]
    | (rw [unary_result_ne]; rotate_left; decide)
    | (rw [binary_result_ne]; rotate_left; decide)
    | (rw [nary_result_ne]; rotate_left; decide))
  rw [W2_main_arg4, W2_main_arg5, W2_main_arg6, W2_main_arg7]
  rfl

/-- Entry (i, 0) of the weights array is the persona weight of row i under the first weight vector. -/
theorem B3_weight0 (c : Dev nD) (P : FVec Ideal S4096x8 .f32) (a : FVec Ideal S8 .f32)
    (hP : (m ((c : Thread nD τ).loc main_arg4) : S4096x8.Idx → EReal) = P)
    (ha : (m ((c : Thread nD τ).loc main_arg5) : S8.Idx → EReal) = a) (i : Fin 4096) :
    (B3 (F := Ideal) m ρ c main_v6 : S4096x3.Idx → EReal) (ix2 i (0 : Fin 3)) = Cert.Spec.weight P a i :=
  (congrFun (B3_v6_eq m ρ c P a _ _ hP ha rfl rfl) (ix2 i (0 : Fin 3))).trans (persona_apply0 P a _ _ i)

/-- Entry (i, 1) of the weights array is the persona weight of row i under the second weight vector. -/
theorem B3_weight1 (c : Dev nD) (P : FVec Ideal S4096x8 .f32) (b : FVec Ideal S8 .f32)
    (hP : (m ((c : Thread nD τ).loc main_arg4) : S4096x8.Idx → EReal) = P)
    (hb : (m ((c : Thread nD τ).loc main_arg6) : S8.Idx → EReal) = b) (i : Fin 4096) :
    (B3 (F := Ideal) m ρ c main_v6 : S4096x3.Idx → EReal) (ix2 i (1 : Fin 3)) = Cert.Spec.weight P b i :=
  (congrFun (B3_v6_eq m ρ c P _ b _ hP rfl hb rfl) (ix2 i (1 : Fin 3))).trans (persona_apply1 P _ b _ i)

/-- Entry (i, 2) of the weights array is the persona weight of row i under the third weight vector. -/
theorem B3_weight2 (c : Dev nD) (P : FVec Ideal S4096x8 .f32) (g : FVec Ideal S8 .f32)
    (hP : (m ((c : Thread nD τ).loc main_arg4) : S4096x8.Idx → EReal) = P)
    (hg : (m ((c : Thread nD τ).loc main_arg7) : S8.Idx → EReal) = g) (i : Fin 4096) :
    (B3 (F := Ideal) m ρ c main_v6 : S4096x3.Idx → EReal) (ix2 i (2 : Fin 3)) = Cert.Spec.weight P g i :=
  (congrFun (B3_v6_eq m ρ c P _ _ g hP rfl rfl hg) (ix2 i (2 : Fin 3))).trans (persona_apply2 P _ _ g i)

/-- The three weights of every row, at the launched persona matrix and weight vectors. -/
theorem B3_weights (c : Dev nD) :
    (∀ i : Fin 4096, (B3 (F := Ideal) m ρ c main_v6 : S4096x3.Idx → EReal) (ix2 i (0 : Fin 3))
        = Cert.Spec.weight (m ((c : Thread nD τ).loc main_arg4)) (m ((c : Thread nD τ).loc main_arg5)) i)
    ∧ (∀ i : Fin 4096, (B3 (F := Ideal) m ρ c main_v6 : S4096x3.Idx → EReal) (ix2 i (1 : Fin 3))
        = Cert.Spec.weight (m ((c : Thread nD τ).loc main_arg4)) (m ((c : Thread nD τ).loc main_arg6)) i)
    ∧ (∀ i : Fin 4096, (B3 (F := Ideal) m ρ c main_v6 : S4096x3.Idx → EReal) (ix2 i (2 : Fin 3))
        = Cert.Spec.weight (m ((c : Thread nD τ).loc main_arg4)) (m ((c : Thread nD τ).loc main_arg7)) i) :=
  ⟨fun i => B3_weight0 m ρ c _ _ rfl rfl i, fun i => B3_weight1 m ρ c _ _ rfl rfl i, fun i => B3_weight2 m ρ c _ _ rfl rfl i⟩

end Cert.KernelIdeal.Val

end
-- ==== Proof.Bridge.lean ====
/-
  The kernel's result buffer after the whole run is the specification's function of the launch memory.

  The third region leaves in its output array the entry function of the arrays it finds (the normalised matrix, the
  neigh matrix, the two adjacency matrices, the three persona weight columns). Each of those is followed back to
  the launch: the normalised matrix is what the first region left, the rows of the second feature matrix normalised
  twice; the neigh matrix is what the second region left, the first adjacency matrix times the difference matrix
  the first region left; the adjacency matrices are as launched; the weight columns are what the host operations
  between the second and the third region made of the persona matrix and the three weight vectors, as launched.
  No algebra is left: the two sides are the same term.
-/
import proofs.«104118_j43800076484745_2_alg».proof.Proof.IRun
import proofs.«104118_j43800076484745_2_alg».proof.Proof.ValPrep
import proofs.«104118_j43800076484745_2_alg».proof.Proof.ValNeigh
import proofs.«104118_j43800076484745_2_alg».proof.Proof.ValMain
import proofs.«104118_j43800076484745_2_alg».proof.Proof.BridgeHost
import proofs.«104118_j43800076484745_2_alg».proof.Proof.Spec
import Idealize.ShloMosaic.Lib.StableHlo.Run
import Idealize.ShloMosaic.Lib.ValueIdx

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr Cert.KernelIdeal.Pay

/-- The entry function of five arrays that are the twice-normalised rows, the neigh rows, the two adjacency
    matrices and the three persona weight columns is the specification. -/
theorem entry_eq_G (X Y : (⟨2, ![4096, 1024]⟩ : Shape).Idx → EReal) (A E : (⟨2, ![4096, 4096]⟩ : Shape).Idx → EReal)
    (P : (⟨2, ![4096, 8]⟩ : Shape).Idx → EReal) (a b g : (⟨1, ![8]⟩ : Shape).Idx → EReal)
    (N Gm : S4096x1024.Idx → EReal) (A' E' : S4096x4096.Idx → EReal) (Wt : S4096x3.Idx → EReal)
    (hN : N = fun idx => Cert.Spec.normedRow Y (idx 0) (idx 1))
    (hG : Gm = fun idx => Cert.Spec.neighRow A X Y (idx 0) (idx 1))
    (hA : A' = A) (hE : E' = E)
    (hW0 : ∀ i : Fin 4096, Wt (ix2 i (0 : Fin 3)) = Cert.Spec.weight P a i)
    (hW1 : ∀ i : Fin 4096, Wt (ix2 i (1 : Fin 3)) = Cert.Spec.weight P b i)
    (hW2 : ∀ i : Fin 4096, Wt (ix2 i (2 : Fin 3)) = Cert.Spec.weight P g i) :
    (fun idx : S4096x4096.Idx =>
      Cert.Spec.entry (fun d => N (ix2 (idx 0) d)) (fun d => N (ix2 (idx 1) d))
        (fun d => Gm (ix2 (idx 0) d)) (fun d => Gm (ix2 (idx 1) d))
        (A' idx) (E' idx) (Wt (ix2 (idx 0) 0)) (Wt (ix2 (idx 0) 1)) (Wt (ix2 (idx 0) 2)))
      = Cert.Spec.G X Y A E P a b g := by
  subst hN hG hA hE
  funext idx
  obtain ⟨i, j, rfl⟩ : ∃ (i j : Fin 4096), idx = ix2 i j := ⟨idx 0, idx 1, eq_ix2 idx⟩
  show Cert.Spec.entry (Cert.Spec.normedRow Y i) (Cert.Spec.normedRow Y j) (Cert.Spec.neighRow A' X Y i)
      (Cert.Spec.neighRow A' X Y j) (A' (ix2 i j)) (E' (ix2 i j)) (Wt (ix2 i (0 : Fin 3))) (Wt (ix2 i (1 : Fin 3)))
      (Wt (ix2 i (2 : Fin 3))) = Cert.Spec.outAt X Y A' E' P a b g i j
  rw [hW0 i, hW1 i, hW2 i]
  rfl

variable (m : (ℓ : Loc nD τ sig) → Buf (Elt Ideal) ℓ) (ρ : Dev nD → PrngReg)

/-! The eight launch arrays of core `c`, typed. -/
abbrev launchX (c : Dev nD) : S4096x1024.Idx → EReal := m ((c : Thread nD τ).loc main_arg0)
abbrev launchY (c : Dev nD) : S4096x1024.Idx → EReal := m ((c : Thread nD τ).loc main_arg1)
abbrev launchA (c : Dev nD) : S4096x4096.Idx → EReal := m ((c : Thread nD τ).loc main_arg2)
abbrev launchE (c : Dev nD) : S4096x4096.Idx → EReal := m ((c : Thread nD τ).loc main_arg3)
abbrev launchP (c : Dev nD) : FVec Ideal S4096x8 .f32 := m ((c : Thread nD τ).loc main_arg4)
abbrev launcha (c : Dev nD) : FVec Ideal S8 .f32 := m ((c : Thread nD τ).loc main_arg5)
abbrev launchb (c : Dev nD) : FVec Ideal S8 .f32 := m ((c : Thread nD τ).loc main_arg6)
abbrev launchg (c : Dev nD) : FVec Ideal S8 .f32 := m ((c : Thread nD τ).loc main_arg7)

/-! The arrays at the boundaries where they are read. -/

/-- The first adjacency matrix as the second region finds it. -/
theorem B1_main_arg2 (c : Dev nD) : (B1 (F := Ideal) m ρ c main_arg2 : S4096x4096.Idx → EReal) = launchA m c :=
  (W1_of_ne m ρ c main_arg2 (by decide)).trans rfl

/-- The difference matrix as the second region finds it: what the first region left. -/
theorem B1_main_v0_1 (c : Dev nD) :
    (B1 (F := Ideal) m ρ c main_v0_1 : S4096x1024.Idx → EReal) = fun idx => launchX m c idx - launchY m c idx :=
  (W1_arr m ρ c 3).trans (final0_3 (B0 m ρ) c (launchX m c) (launchY m c) rfl rfl)

/-- The normalised matrix as the third region finds it: what the first region left. -/
theorem B3_main_v0_0 (c : Dev nD) :
    (B3 (F := Ideal) m ρ c main_v0_0 : S4096x1024.Idx → EReal)
      = fun idx => Cert.Spec.normedRow (launchY m c) (idx 0) (idx 1) :=
  (W3_of m ρ c main_v0_0 (by decide)).trans ((W2_of_ne m ρ c main_v0_0 (by decide)).trans
    ((W1_arr m ρ c 2).trans (final0_2 (B0 m ρ) c (launchY m c) rfl)))

/-- The neigh matrix as the third region finds it: what the second region left. -/
theorem B3_main_v1 (c : Dev nD) :
    (B3 (F := Ideal) m ρ c main_v1 : S4096x1024.Idx → EReal)
      = fun idx => Cert.Spec.neighRow (launchA m c) (launchX m c) (launchY m c) (idx 0) (idx 1) :=
  (W3_of m ρ c main_v1 (by decide)).trans ((W2_arr m ρ c 2).trans
    (final1_2_neigh (B1 m ρ) c (launchA m c) (launchX m c) (launchY m c) (B1_main_arg2 m ρ c) (B1_main_v0_1 m ρ c)))

/-- The two adjacency matrices as the third region finds them: as launched. -/
theorem B3_main_arg2 (c : Dev nD) : (B3 (F := Ideal) m ρ c main_arg2 : S4096x4096.Idx → EReal) = launchA m c :=
  (W4_of_ne m ρ c main_arg2 (by decide)).symm.trans (W4_main_arg2 m ρ c)
theorem B3_main_arg3 (c : Dev nD) : (B3 (F := Ideal) m ρ c main_arg3 : S4096x4096.Idx → EReal) = launchE m c :=
  (W4_of_ne m ρ c main_arg3 (by decide)).symm.trans (W4_main_arg3 m ρ c)

/-- The result buffer after the run is the specification of the launch arrays, given the three persona weight
    columns as the third region finds them. -/
theorem result_eq_of_weights (c : Dev nD)
    (hW0 : ∀ i : Fin 4096, (B3 (F := Ideal) m ρ c main_v6 : S4096x3.Idx → EReal) (ix2 i (0 : Fin 3))
      = Cert.Spec.weight (launchP m c) (launcha m c) i)
    (hW1 : ∀ i : Fin 4096, (B3 (F := Ideal) m ρ c main_v6 : S4096x3.Idx → EReal) (ix2 i (1 : Fin 3))
      = Cert.Spec.weight (launchP m c) (launchb m c) i)
    (hW2 : ∀ i : Fin 4096, (B3 (F := Ideal) m ρ c main_v6 : S4096x3.Idx → EReal) (ix2 i (2 : Fin 3))
      = Cert.Spec.weight (launchP m c) (launchg m c) i) :
    W4 (F := Ideal) m ρ c (Proc.devRef .tc main_v7)
      = Cert.Spec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (W4_out m ρ c).trans ((final2_7 (B3 m ρ) c).trans ?_)
  exact entry_eq_G (launchX m c) (launchY m c) (launchA m c) (launchE m c) (launchP m c) (launcha m c) (launchb m c) (launchg m c)
    _ _ _ _ _ (B3_main_v0_0 m ρ c) (B3_main_v1 m ρ c) (B3_main_arg2 m ρ c) (B3_main_arg3 m ρ c) hW0 hW1 hW2

/-- The result buffer after the run is the specification of the launch arrays. -/
theorem result_eq (c : Dev nD) :
    W4 (F := Ideal) m ρ c (Proc.devRef .tc main_v7)
      = Cert.Spec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) :=
  result_eq_of_weights m ρ c (B3_weights m ρ c).1 (B3_weights m ρ c).2.1 (B3_weights m ρ c).2.2

end Cert.KernelIdeal.Val

end
-- ==== Proof.RefValue.lean ====
/-
  The reference's result is the specification `Cert.Spec.G`, index by index, on the extended reals.

  The reference normalises the rows of Y twice (square, sum along the row from the zero literal, square root,
  compare against zero, select the norm or one, divide), forms neigh = A · (X − Y), takes the two Gram matrices
  n · nᵀ and neigh · neighᵀ (the transposes turn the inner sums into sums over d of M(i,d) · M(j,d)), the three persona
  weights P · w, and combines them entrywise. Two laws are used: the sum that starts from the zero literal is the
  plain sum, and the quotient by the literal 1024 is the product with the literal 2^-10.
-/
import proofs.«104118_j43800076484745_2_alg».proof.Proof.Gen.ReferenceIdeal.Read
import proofs.«104118_j43800076484745_2_alg».proof.Proof.Spec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The two literals 1024 and 2^-10 -/

/-- The word 0x44800000 denotes the real 1024. -/
theorem ofBits_1024 : Ideal.ofBits .f32 0x44800000#32 = ((1024 : ℝ) : EReal) := by
  simp [Ideal.ofBits, Ideal.ieee, -EReal.coe_mul]; norm_num

/-- The word 0x3A800000 denotes the real 1/1024. -/
theorem ofBits_inv1024 : Ideal.ofBits .f32 0x3A800000#32 = ((1 / 1024 : ℝ) : EReal) := by
  simp [Ideal.ofBits, Ideal.ieee, -EReal.coe_mul]; norm_num

/-- Dividing by the literal 1024 is multiplying by the literal 2^-10, on every extended real. -/
theorem div_1024 (x : EReal) :
    Ideal.div x (Ideal.ofBits .f32 0x44800000#32) = x * Ideal.ofBits .f32 0x3A800000#32 := by
  rw [ofBits_1024, ofBits_inv1024, Ideal.div_coe (by norm_num : (1024 : ℝ) ≠ 0)]

/-! ## The rows of Y normalised twice -/

/-- The row sum of squares: the sum from the zero literal is the plain sum. -/
theorem v11_at (Y : FVec Ideal S4096x1024 .f32) (i : Fin 4096) :
    val_main_v11 (F := Ideal) Y (ix1 i) = ∑ k : Fin 1024, Y (ix2 i k) * Y (ix2 i k) := by
  have e : ∀ k : Fin 1024, idx_main_v11 (ix1 i) k = ix2 i k := fun k => funext fun a => by
    match a with | ⟨0, _⟩ => rfl | ⟨1, _⟩ => rfl
  rw [val_main_v11_apply]
  simp only [val_main_cst_0_apply, val_main_v10_apply, e, Ideal.ofBits_def, Ideal.mulf_def, Ideal.ofBits_zero_f32, zero_add]

/-- The safe denominator of row i of Y. -/
theorem v16_at (Y : FVec Ideal S4096x1024 .f32) (i : Fin 4096) (z : Fin 1) :
    val_main_v16 (F := Ideal) Y (ix2 i z)
      = Cert.Spec.den (Ideal.sqrt (∑ k : Fin 1024, Y (ix2 i k) * Y (ix2 i k))) := by
  have e12 : idx_main_v12 (ix2 i z) = ix1 i := funext fun a => by
    match a with | ⟨0, _⟩ => rfl
  rw [val_main_v16_apply, val_main_v15_apply, val_main_v13_apply, val_main_v12_apply, val_main_v14_apply,
    val_main_cst_1_apply, val_main_call0_v1_apply, val_main_call0_v0_apply, val_main_cst_2_apply, e12, v11_at]
  simp only [Ideal.hostUnary_sqrt_def, Ideal.ofBits_def]
  rfl

/-- Row i of Y normalised once. -/
theorem v18_at (Y : FVec Ideal S4096x1024 .f32) (i : Fin 4096) (d : Fin 1024) :
    val_main_v18 (F := Ideal) Y (ix2 i d) = Cert.Spec.rowNormalize (fun d => Y (ix2 i d)) d := by
  have e17 : idx_main_v17 (ix2 i d) = ix2 i (⟨0, Nat.one_pos⟩ : Fin 1) := funext fun a => by
    match a with | ⟨0, _⟩ => rfl | ⟨1, _⟩ => rfl
  rw [val_main_v18_apply, val_main_v17_apply, e17, v16_at]
  simp only [Ideal.hostDivf_def]
  rfl

/-- The row sum of squares of the once-normalised rows. -/
theorem v20_at (Y : FVec Ideal S4096x1024 .f32) (i : Fin 4096) :
    val_main_v20 (F := Ideal) Y (ix1 i)
      = ∑ k : Fin 1024, Cert.Spec.rowNormalize (fun d => Y (ix2 i d)) k * Cert.Spec.rowNormalize (fun d => Y (ix2 i d)) k := by
  have e : ∀ k : Fin 1024, idx_main_v20 (ix1 i) k = ix2 i k := fun k => funext fun a => by
    match a with | ⟨0, _⟩ => rfl | ⟨1, _⟩ => rfl
  rw [val_main_v20_apply]
  simp only [val_main_cst_3_apply, val_main_v19_apply, e, v18_at, Ideal.ofBits_def, Ideal.mulf_def, Ideal.ofBits_zero_f32, zero_add]

/-- The safe denominator of row i of the once-normalised Y. -/
theorem v25_at (Y : FVec Ideal S4096x1024 .f32) (i : Fin 4096) (z : Fin 1) :
    val_main_v25 (F := Ideal) Y (ix2 i z)
      = Cert.Spec.den (Ideal.sqrt (∑ k : Fin 1024,
          Cert.Spec.rowNormalize (fun d => Y (ix2 i d)) k * Cert.Spec.rowNormalize (fun d => Y (ix2 i d)) k)) := by
  have e21 : idx_main_v21 (ix2 i z) = ix1 i := funext fun a => by
    match a with | ⟨0, _⟩ => rfl
  rw [val_main_v25_apply, val_main_v24_apply, val_main_v22_apply, val_main_v21_apply, val_main_v23_apply,
    val_main_cst_4_apply, val_main_call1_v1_apply, val_main_call1_v0_apply, val_main_cst_5_apply, e21, v20_at]
  simp only [Ideal.hostUnary_sqrt_def, Ideal.ofBits_def]
  rfl

/-- Row i of Y normalised twice. -/
theorem v27_at (Y : FVec Ideal S4096x1024 .f32) (i : Fin 4096) (d : Fin 1024) :
    val_main_v27 (F := Ideal) Y (ix2 i d) = Cert.Spec.normedRow Y i d := by
  have e26 : idx_main_v26 (ix2 i d) = ix2 i (⟨0, Nat.one_pos⟩ : Fin 1) := funext fun a => by
    match a with | ⟨0, _⟩ => rfl | ⟨1, _⟩ => rfl
  rw [val_main_v27_apply, val_main_v26_apply, e26, v25_at, v18_at]
  simp only [Ideal.hostDivf_def]
  rfl

/-- The Gram matrix of the twice-normalised rows. -/
theorem v29_at (Y : FVec Ideal S4096x1024 .f32) (i j : Fin 4096) :
    val_main_v29 (F := Ideal) Y (ix2 i j) = ∑ d : Fin 1024, Cert.Spec.normedRow Y i d * Cert.Spec.normedRow Y j d := by
  have el : ∀ k : Fin 1024, lidx_main_v29 (ix2 i j) k = ix2 i k := fun k => funext fun a => by
    match a with | ⟨0, _⟩ => rfl | ⟨1, _⟩ => rfl
  have er : ∀ k : Fin 1024, idx_main_v28 (ridx_main_v29 (ix2 i j) k) = ix2 j k := fun k => funext fun a => by
    match a with | ⟨0, _⟩ => rfl | ⟨1, _⟩ => rfl
  rw [val_main_v29_apply]
  simp only [val_main_v28_apply, el, er, v27_at]

/-! ## neigh = A · (X − Y) and its Gram matrix -/

/-- Row i of A · (X − Y). -/
theorem v1_at (X Y : FVec Ideal S4096x1024 .f32) (A : FVec Ideal S4096x4096 .f32) (i : Fin 4096) (d : Fin 1024) :
    val_main_v1 (F := Ideal) X Y A (ix2 i d) = Cert.Spec.neighRow A X Y i d := by
  have el : ∀ k : Fin 4096, lidx_main_v1 (ix2 i d) k = ix2 i k := fun k => funext fun a => by
    match a with | ⟨0, _⟩ => rfl | ⟨1, _⟩ => rfl
  have er : ∀ k : Fin 4096, ridx_main_v1 (ix2 i d) k = ix2 k d := fun k => funext fun a => by
    match a with | ⟨0, _⟩ => rfl | ⟨1, _⟩ => rfl
  rw [val_main_v1_apply]
  simp only [val_main_v0_apply, el, er, Ideal.subf_def]
  rfl

/-- The Gram matrix of the neigh rows. -/
theorem v3_at (X Y : FVec Ideal S4096x1024 .f32) (A : FVec Ideal S4096x4096 .f32) (i j : Fin 4096) :
    val_main_v3 (F := Ideal) X Y A (ix2 i j)
      = ∑ d : Fin 1024, Cert.Spec.neighRow A X Y i d * Cert.Spec.neighRow A X Y j d := by
  have el : ∀ k : Fin 1024, lidx_main_v3 (ix2 i j) k = ix2 i k := fun k => funext fun a => by
    match a with | ⟨0, _⟩ => rfl | ⟨1, _⟩ => rfl
  have er : ∀ k : Fin 1024, idx_main_v2 (ridx_main_v3 (ix2 i j) k) = ix2 j k := fun k => funext fun a => by
    match a with | ⟨0, _⟩ => rfl | ⟨1, _⟩ => rfl
  rw [val_main_v3_apply]
  simp only [val_main_v2_apply, el, er, v1_at]

/-! ## The persona weights -/

/-- The persona weight of row i under the third weight vector. -/
theorem v7_at (P : FVec Ideal S4096x8 .f32) (w : FVec Ideal S8 .f32) (i : Fin 4096) (z : Fin 1) :
    val_main_v7 (F := Ideal) P w (ix2 i z) = Cert.Spec.weight P w i := by
  have el : ∀ k : Fin 8, lidx_main_v7 (ix2 i z) k = ix2 i k := fun k => funext fun a => by
    match a with | ⟨0, _⟩ => rfl | ⟨1, _⟩ => rfl
  have er : ∀ k : Fin 8, idx_main_v6 (ridx_main_v7 (ix2 i z) k) = ix1 k := fun k => funext fun a => by
    match a with | ⟨0, _⟩ => rfl
  rw [val_main_v7_apply]
  simp only [val_main_v6_apply, el, er]
  rfl

/-- The persona weight of row i under the first weight vector. -/
theorem v32_at (P : FVec Ideal S4096x8 .f32) (w : FVec Ideal S8 .f32) (i : Fin 4096) (z : Fin 1) :
    val_main_v32 (F := Ideal) P w (ix2 i z) = Cert.Spec.weight P w i := by
  have el : ∀ k : Fin 8, lidx_main_v32 (ix2 i z) k = ix2 i k := fun k => funext fun a => by
    match a with | ⟨0, _⟩ => rfl | ⟨1, _⟩ => rfl
  have er : ∀ k : Fin 8, idx_main_v31 (ridx_main_v32 (ix2 i z) k) = ix1 k := fun k => funext fun a => by
    match a with | ⟨0, _⟩ => rfl
  rw [val_main_v32_apply]
  simp only [val_main_v31_apply, el, er]
  rfl

/-- The persona weight of row i under the second weight vector. -/
theorem v36_at (P : FVec Ideal S4096x8 .f32) (w : FVec Ideal S8 .f32) (i : Fin 4096) (z : Fin 1) :
    val_main_v36 (F := Ideal) P w (ix2 i z) = Cert.Spec.weight P w i := by
  have el : ∀ k : Fin 8, lidx_main_v36 (ix2 i z) k = ix2 i k := fun k => funext fun a => by
    match a with | ⟨0, _⟩ => rfl | ⟨1, _⟩ => rfl
  have er : ∀ k : Fin 8, idx_main_v35 (ridx_main_v36 (ix2 i z) k) = ix1 k := fun k => funext fun a => by
    match a with | ⟨0, _⟩ => rfl
  rw [val_main_v36_apply]
  simp only [val_main_v35_apply, el, er]
  rfl

/-! ## The result -/

/-- The reference's result array is the specification: at (i, j) both are
    ((A(i,j) · sum_d n(i,d) · n(j,d)) · pa(i) − E(i,j) · pb(i)) + ((sum_d neigh(i,d) · neigh(j,d)) · 2^-10) · pg(i),
    the two sides associating the products the same way; the reference's quotient by 1024 is the product with 2^-10. -/
theorem ref_eq (X Y : FVec Ideal S4096x1024 .f32) (A E : FVec Ideal S4096x4096 .f32) (P : FVec Ideal S4096x8 .f32)
    (a b g : FVec Ideal S8 .f32) :
    val_main_v40 (F := Ideal) X Y A E P a b g = Cert.Spec.G X Y A E P a b g := by
  funext idx
  obtain ⟨i, j, rfl⟩ : ∃ (i j : Fin 4096), idx = ix2 i j := ⟨idx 0, idx 1, eq_ix2 idx⟩
  have e8 : idx_main_v8 (ix2 i j) = ix2 i (⟨0, Nat.one_pos⟩ : Fin 1) := funext fun a => by
    match a with | ⟨0, _⟩ => rfl | ⟨1, _⟩ => rfl
  have e33 : idx_main_v33 (ix2 i j) = ix2 i (⟨0, Nat.one_pos⟩ : Fin 1) := funext fun a => by
    match a with | ⟨0, _⟩ => rfl | ⟨1, _⟩ => rfl
  have e37 : idx_main_v37 (ix2 i j) = ix2 i (⟨0, Nat.one_pos⟩ : Fin 1) := funext fun a => by
    match a with | ⟨0, _⟩ => rfl | ⟨1, _⟩ => rfl
  rw [Cert.Spec.G_apply, val_main_v40_apply, val_main_v39_apply, val_main_v34_apply, val_main_v30_apply, val_main_v33_apply,
    val_main_v38_apply, val_main_v37_apply, val_main_v9_apply, val_main_v5_apply, val_main_v8_apply, val_main_v4_apply,
    val_main_cst_apply, e8, e33, e37, v29_at, v3_at, v7_at, v32_at, v36_at]
  simp only [Ideal.addf_def, Ideal.subf_def, Ideal.mulf_def, Ideal.hostDivf_def, Ideal.ofBits_def, div_1024]
  rfl

end Cert.ReferenceIdeal.RefValue

end
-- ==== Proof.lean ====
/-
  The certificate of a kernel that scores every ordered pair of 4096 nodes against its plain reference.

  With X, Y the two feature matrices, A, E the two adjacency matrices, P the persona matrix and a, b, g three
  weight vectors, both programs compute, for every pair (i, j),

      ((A(i,j) · ⟨n_i, n_j⟩) · pa(i) − E(i,j) · pb(i)) + (⟨h_i, h_j⟩ / 1024) · pg(i),

  where n is Y with each row divided twice by its Euclidean norm (or by one where that norm is not positive),
  h = A · (X − Y), and pa, pb, pg are P times a, b, g. The kernel does it in three pipelined regions — the
  difference and the normalised rows, block by block; h, block by block; the output, tile by tile, the weights
  packed side by side by a host product in between — and multiplies by 2^-10 where the reference divides by
  1024: on the extended reals these are one function, with no finiteness needed.

  The frames: each region's body is run on its staging blocks, the pipeline's invariant carries the untouched
  rest, and the three regions and the host stretch are chained over the core's unscoped buffers; the third
  region reads two arrays through two windows each, so each of these arrays' full share is dealt in halves
  between its two windows on entry and joined on exit. The values: every output block is the body's pure term of
  the input blocks, read entry by entry; the blocks tile each array; the reference's run is read one operation
  at a time; both sides are the specification in Proof/Spec.lean.
-/
import proofs.«104118_j43800076484745_2_alg».proof.Defs
import proofs.«104118_j43800076484745_2_alg».proof.Proof.Gen.Kernel
import proofs.«104118_j43800076484745_2_alg».proof.Proof.Gen.KernelIdeal
import proofs.«104118_j43800076484745_2_alg».proof.Proof.Gen.ReferenceIdeal
import proofs.«104118_j43800076484745_2_alg».proof.Proof.Gen.Pre_finite_inputs
import proofs.«104118_j43800076484745_2_alg».proof.Proof.Gen.ReferenceIdeal.Run
import proofs.«104118_j43800076484745_2_alg».proof.Proof.Gen.ReferenceIdeal.Read
import proofs.«104118_j43800076484745_2_alg».proof.Proof.BRun
import proofs.«104118_j43800076484745_2_alg».proof.Proof.IRun
import proofs.«104118_j43800076484745_2_alg».proof.Proof.Bridge
import proofs.«104118_j43800076484745_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_kernel [hKernel : Cert.Kernel.Facts] [hPre_finite_inputs : Cert.Pre_finite_inputs.Facts] : Cert.frame_Kernel :=
  fun m ρ _ => Cert.Kernel.Fr.frame m ρ

/-- So does its reading on the extended reals. -/
theorem frame_kernelIdeal [hKernelIdeal : Cert.KernelIdeal.Facts] [hPre_finite_inputs : Cert.Pre_finite_inputs.Facts] : Cert.frame_KernelIdeal :=
  fun m ρ _ => Cert.KernelIdeal.Fr.frame m ρ

/-- The reference is host operations only: its run with the result dropped. -/
theorem frame_reference [hReferenceIdeal : Cert.ReferenceIdeal.Facts] [hPre_finite_inputs : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's array of the (agreeing) arguments. -/
theorem algebraic [hKernelIdeal : Cert.KernelIdeal.Facts] [hReferenceIdeal : Cert.ReferenceIdeal.Facts] [hPre_finite_inputs : Cert.Pre_finite_inputs.Facts] :
    Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run (Cert.KernelIdeal.defs (F := Ideal)) _ _).mono (fun r h c =>
      ⟨(h c _ (Cert.KernelIdeal.Fr.mem_uc Cert.KernelIdeal.main_v7 (by decide))).trans (Cert.KernelIdeal.Val.result_eq m ρ c),
       (h c _ (Cert.KernelIdeal.Fr.mem_uc Cert.KernelIdeal.main_arg0 (by decide))).trans (Cert.KernelIdeal.Fr.W4_main_arg0 m ρ c),
       (h c _ (Cert.KernelIdeal.Fr.mem_uc Cert.KernelIdeal.main_arg1 (by decide))).trans (Cert.KernelIdeal.Fr.W4_main_arg1 m ρ c),
       (h c _ (Cert.KernelIdeal.Fr.mem_uc Cert.KernelIdeal.main_arg2 (by decide))).trans (Cert.KernelIdeal.Fr.W4_main_arg2 m ρ c),
       (h c _ (Cert.KernelIdeal.Fr.mem_uc Cert.KernelIdeal.main_arg3 (by decide))).trans (Cert.KernelIdeal.Fr.W4_main_arg3 m ρ c),
       (h c _ (Cert.KernelIdeal.Fr.mem_uc Cert.KernelIdeal.main_arg4 (by decide))).trans (Cert.KernelIdeal.Fr.W4_main_arg4 m ρ c),
       (h c _ (Cert.KernelIdeal.Fr.mem_uc Cert.KernelIdeal.main_arg5 (by decide))).trans (Cert.KernelIdeal.Fr.W4_main_arg5 m ρ c),
       (h c _ (Cert.KernelIdeal.Fr.mem_uc Cert.KernelIdeal.main_arg6 (by decide))).trans (Cert.KernelIdeal.Fr.W4_main_arg6 m ρ c),
       (h c _ (Cert.KernelIdeal.Fr.mem_uc Cert.KernelIdeal.main_arg7 (by decide))).trans (Cert.KernelIdeal.Fr.W4_main_arg7 m ρ c)⟩)
      (Cert.KernelIdeal.Fr.run_all m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v40_eq, Cert.ReferenceIdeal.RefValue.ref_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
